-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024 : Shape := ⟨1, ![1024]⟩
abbrev S1024x1024 : Shape := ⟨2, ![1024, 1024]⟩
abbrev S2048x1024 : Shape := ⟨2, ![2048, 1024]⟩
abbrev S2048 : Shape := ⟨1, ![2048]⟩
abbrev S1x2048 : Shape := ⟨2, ![1, 2048]⟩
abbrev S1 : Shape := ⟨1, ![1]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S1x2048 : S_.BroadcastsInDim S1x2048 (![] : Fin 0 → Fin S1x2048.rank)
  reducesTo_S1x2048_S_d0_1 : S1x2048.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg14 : FVec F S2048x1024 .f32) (main_arg15 : FVec F S2048 .f32) (main_arg16 : FVec F S1x2048 .f32) (main_arg17 : FVec F S1 .f32) (main_v63 : IVec S_ 1) (main_v67 : IVec S_ 1) : IVec S_ 1 :=
  let main_v68 : IVec S_ 1 := andi main_v63 main_v67
  let main_v69 : FVec F S2048x1024 .f32 := Host.absf main_arg14
  let main_cst_26 : FVec F S_ .f32 := constant S_ .f32 0x7F800000#32
  let main_v70 : FVec F S2048x1024 .f32 := broadcastInDim S2048x1024 ![] bcast_S_S2048x1024 main_cst_26
  let main_v71 : IVec S2048x1024 1 := cmpf .olt main_v69 main_v70
  let main_c_27 : IVec S_ 1 := constantI S_ 1 1#1
  let main_v72 : IVec S_ 1 := (fun x v => Host.reduce IntOp.andi x v reducesTo_S2048x1024_S_d0_1 h_S_) main_v71 main_c_27
  let main_v73 : IVec S_ 1 := andi main_v68 main_v72
  let main_v74 : FVec F S2048 .f32 := Host.absf main_arg15
  let main_cst_28 : FVec F S_ .f32 := constant S_ .f32 0x7F800000#32
  let main_v75 : FVec F S2048 .f32 := broadcastInDim S2048 ![] bcast_S_S2048 main_cst_28
  let main_v76 : IVec S2048 1 := cmpf .olt main_v74 main_v75
  let main_c_29 : IVec S_ 1 := constantI S_ 1 1#1
  let main_v77 : IVec S_ 1 := (fun x v => Host.reduce IntOp.andi x v reducesTo_S2048_S_d0 h_S_) main_v76 main_c_29
  let main_v78 : IVec S_ 1 := andi main_v73 main_v77
  let main_v79 : FVec F S1x2048 .f32 := Host.absf main_arg16
  let main_cst_30 : FVec F S_ .f32 := constant S_ .f32 0x7F800000#32
  let main_v80 : FVec F S1x2048 .f32 := broadcastInDim S1x2048 ![] bcast_S_S1x2048 main_cst_30
  let main_v81 : IVec S1x2048 1 := cmpf .olt main_v79 main_v80
  let main_c_31 : IVec S_ 1 := constantI S_ 1 1#1
  let main_v82 : IVec S_ 1 := (fun x v => Host.reduce IntOp.andi x v reducesTo_S1x2048_S_d0_1 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_v83 main_v84 main_cst_32

def fn_part3 {F : FTy → Type} [FloatOps F] (main_arg11 : FVec F S1024 .f32) (main_arg12 : FVec F S1024x1024 .f32) (main_arg13 : FVec F S1024 .f32) (main_arg14 : FVec F S2048x1024 .f32) (main_arg15 : FVec F S2048 .f32) (main_arg16 : FVec F S1x2048 .f32) (main_arg17 : FVec F S1 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_arg17 main_v63 main_v67

def fn_part2 {F : FTy → Type} [FloatOps F] (main_arg7 : FVec F S1024x1024 .f32) (main_arg8 : FVec F S1024x1024 .f32) (main_arg9 : FVec F S1024 .f32) (main_arg10 : FVec F S1024 .f32) (main_arg11 : FVec F S1024 .f32) (main_arg12 : FVec F S1024x1024 .f32) (main_arg13 : FVec F S1024 .f32) (main_arg14 : FVec F S2048x1024 .f32) (main_arg15 : FVec F S2048 .f32) (main_arg16 : FVec F S1x2048 .f32) (main_arg17 : FVec F S1 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_v48 main_v49 main_v50

def fn_part1 {F : FTy → Type} [FloatOps F] (main_arg4 : FVec F S1024 .f32) (main_arg5 : FVec F S1024 .f32) (main_arg6 : FVec F S1024x1024 .f32) (main_arg7 : FVec F S1024x1024 .f32) (main_arg8 : FVec F S1024x1024 .f32) (main_arg9 : FVec F S1024 .f32) (main_arg10 : FVec F S1024 .f32) (main_arg11 : FVec F S1024 .f32) (main_arg12 : FVec F S1024x1024 .f32) (main_arg13 : FVec F S1024 .f32) (main_arg14 : FVec F S2048x1024 .f32) (main_arg15 : FVec F S2048 .f32) (main_arg16 : FVec F S1x2048 .f32) (main_arg17 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S32768x1024 .f32) (main_arg1 : FVec F S32768x1024 .f32) (main_arg2 : FVec F S1024 .f32) (main_arg3 : FVec F S1024 .f32) (main_arg4 : FVec F S1024 .f32) (main_arg5 : FVec F S1024 .f32) (main_arg6 : FVec F S1024x1024 .f32) (main_arg7 : FVec F S1024x1024 .f32) (main_arg8 : FVec F S1024x1024 .f32) (main_arg9 : FVec F S1024 .f32) (main_arg10 : FVec F S1024 .f32) (main_arg11 : FVec F S1024 .f32) (main_arg12 : FVec F S1024x1024 .f32) (main_arg13 : FVec F S1024 .f32) (main_arg14 : FVec F S2048x1024 .f32) (main_arg15 : FVec F S2048 .f32) (main_arg16 : FVec F S1x2048 .f32) (main_arg17 : FVec F S1 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S32768x1024 : Shape := ⟨2, ![32768, 1024]⟩
abbrev S1024 : Shape := ⟨1, ![1024]⟩
abbrev S1024x1024 : Shape := ⟨2, ![1024, 1024]⟩
abbrev S2048x1024 : Shape := ⟨2, ![2048, 1024]⟩
abbrev S2048 : Shape := ⟨1, ![2048]⟩
abbrev S1x2048 : Shape := ⟨2, ![1, 2048]⟩
abbrev S1 : Shape := ⟨1, ![1]⟩
abbrev S1024x2048 : Shape := ⟨2, ![1024, 2048]⟩
abbrev S2048x1 : Shape := ⟨2, ![2048, 1]⟩
abbrev S32768x1 : Shape := ⟨2, ![32768, 1]⟩
abbrev S256x1024 : Shape := ⟨2, ![256, 1024]⟩
abbrev S256x1 : Shape := ⟨2, ![256, 1]⟩
abbrev S256 : Shape := ⟨1, ![256]⟩
abbrev S1x1024 : Shape := ⟨2, ![1, 1024]⟩
abbrev S256x256 : Shape := ⟨2, ![256, 256]⟩
abbrev S256x2048 : Shape := ⟨2, ![256, 2048]⟩
abbrev S1x1 : Shape := ⟨2, ![1, 1]⟩

abbrev nBuf : Space → Nat
  | .hbm => 31
  | .vmem => 23
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S2048x1024, .f32⟩
  | .hbm, ⟨15, _⟩ => ⟨S2048, .f32⟩
  | .hbm, ⟨16, _⟩ => ⟨S1x2048, .f32⟩
  | .hbm, ⟨17, _⟩ => ⟨S1, .f32⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S1024x1024, .f32⟩
  | .hbm, ⟨23, _⟩ => ⟨S1024x1024, .bf16⟩
  | .hbm, ⟨24, _⟩ => ⟨S1024x1024, .f32⟩
  | .hbm, ⟨25, _⟩ => ⟨S1024x1024, .bf16⟩
  | .hbm, ⟨26, _⟩ => ⟨S1024x2048, .f32⟩
  | .hbm, ⟨27, _⟩ => ⟨S1024x2048, .bf16⟩
  | .hbm, ⟨28, _⟩ => ⟨S2048x1, .f32⟩
  | .hbm, ⟨29, _⟩ => ⟨S2048x1, .bf16⟩
  | .hbm, ⟨30, _⟩ => ⟨S32768x1, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024, .f32⟩
  | .local _ .vmem, ⟨5, _⟩ => ⟨S1024, .f32⟩
  | .local _ .vmem, ⟨6, _⟩ => ⟨S1024, .f32⟩
  | .local _ .vmem, ⟨7, _⟩ => ⟨S1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024, .f32⟩
  | .local _ .vmem, ⟨12, _⟩ => ⟨S1024, .f32⟩
  | .local _ .vmem, ⟨13, _⟩ => ⟨S1024, .f32⟩
  | .local _ .vmem, ⟨14, _⟩ => ⟨S1024x1024, .bf16⟩
  | .local _ .vmem, ⟨15, _⟩ => ⟨S1024, .f32⟩
  | .local _ .vmem, ⟨16, _⟩ => ⟨S1024x2048, .bf16⟩
  | .local _ .vmem, ⟨17, _⟩ => ⟨S2048, .f32⟩
  | .local _ .vmem, ⟨18, _⟩ => ⟨S2048x1, .bf16⟩
  | .local _ .vmem, ⟨19, _⟩ => ⟨S1, .f32⟩
  | .local _ .vmem, ⟨20, _⟩ => ⟨S256x1, .f32⟩
  | .local _ .vmem, ⟨21, _⟩ => ⟨S256x1, .f32⟩
  | .local _ .vmem, ⟨22, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2048x1 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x1 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  transposes_S1024x1024_S1024x1024_1_0 : S1024x1024.Transposes [1, 0] S1024x1024
  bitsLt_bf16_f32 : FTy.bits .bf16 < FTy.bits .f32
  transposes_S2048x1024_S1024x2048_1_0 : S2048x1024.Transposes [1, 0] S1024x2048
  transposes_S1x2048_S2048x1_1_0 : S1x2048.Transposes [1, 0] S2048x1
  inb_S256x1024_S256x1024_0_0 : ∀ a, (![0, 0] : Fin 2 → Nat) a + S256x1024.size a ≤ S256x1024.size a
  h_S256x1024 : 0 < S256x1024.numel
  reduces_S256x1024_S256 : S256x1024.Reduces [1] S256
  shapeCasts_S256_S256x1 : S256.ShapeCasts S256x1
  broadcasts_S256x1_S256x1024 : S256x1.Broadcasts S256x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S256x1024_o0_0_S256x256 : S256x1024.Slices ![0, 0] S256x256
  reduces_S256x256_S256 : S256x256.Reduces [1] S256
  reduces_S256x1_S256 : S256x1.Reduces [1] S256
  broadcasts_S256x1_S256x256 : S256x1.Broadcasts S256x256
  inb_S256x1024_S256x256_0_0 : ∀ a, (![0, 0] : Fin 2 → Nat) a + S256x256.size a ≤ S256x1024.size a
  h_S256x256 : 0 < S256x256.numel
  shapeCasts_S256x256_S256x256 : S256x256.ShapeCasts S256x256
  slices_S256x1024_o0_256_S256x256 : S256x1024.Slices ![0, 256] S256x256
  inb_S256x1024_S256x256_0_256 : ∀ a, (![0, 256] : Fin 2 → Nat) a + S256x256.size a ≤ S256x1024.size a
  slices_S256x1024_o0_512_S256x256 : S256x1024.Slices ![0, 512] S256x256
  inb_S256x1024_S256x256_0_512 : ∀ a, (![0, 512] : Fin 2 → Nat) a + S256x256.size a ≤ S256x1024.size a
  slices_S256x1024_o0_768_S256x256 : S256x1024.Slices ![0, 768] S256x256
  inb_S256x1024_S256x256_0_768 : ∀ a, (![0, 768] : Fin 2 → Nat) a + S256x256.size a ≤ S256x1024.size a
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S256x2048 : S1x2048.Broadcasts S256x2048
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1_S1_0 : ∀ a, (![0] : Fin 1 → Nat) a + S1.size a ≤ S1.size a
  h_S1 : 0 < S1.numel
  shapeCasts_S1_S1x1 : S1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  dot_S256x1024_S1024x1024_S256x1024_1_0_0_1_n_n_wf : DotDims.WF S256x1024 S1024x1024 S256x1024 [1] [0] [0] [1] [] []
  dot_S256x1024_S1024x2048_S256x2048_1_0_0_1_n_n_wf : DotDims.WF S256x1024 S1024x2048 S256x2048 [1] [0] [0] [1] [] []
  dot_S256x2048_S2048x1_S256x1_1_0_0_1_n_n_wf : DotDims.WF S256x2048 S2048x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S32768x1024.size a
  hwx0_0 : ∀ i : grid0.Coords, EltTy.bits .f32 = 32 ∨ (Rect.block (s := S32768x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S32768x1024.size a
  hwx0_1 : ∀ i : grid0.Coords, EltTy.bits .f32 = 32 ∨ (Rect.block (s := S32768x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024.size a ≤ S1024.size a
  hwx0_9 : ∀ i : grid0.Coords, EltTy.bits .f32 = 32 ∨ (Rect.block (s := S1024) S1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024.size a ≤ S1024.size a
  hwx0_10 : ∀ i : grid0.Coords, EltTy.bits .f32 = 32 ∨ (Rect.block (s := S1024) S1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024.size a ≤ S1024.size a
  hwx0_11 : ∀ i : grid0.Coords, EltTy.bits .f32 = 32 ∨ (Rect.block (s := S1024) S1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x1024.size a ≤ S1024x1024.size a
  hwx0_12 : ∀ i : grid0.Coords, EltTy.bits .bf16 = 32 ∨ (Rect.block (s := S1024x1024) S1024x1024.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024.size a ≤ S1024.size a
  hwx0_13 : ∀ i : grid0.Coords, EltTy.bits .f32 = 32 ∨ (Rect.block (s := S1024) S1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1024x2048.size a ≤ S1024x2048.size a
  hwx0_14 : ∀ i : grid0.Coords, EltTy.bits .bf16 = 32 ∨ (Rect.block (s := S1024x2048) S1024x2048.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S2048.size a ≤ S2048.size a
  hwx0_15 : ∀ i : grid0.Coords, EltTy.bits .f32 = 32 ∨ (Rect.block (s := S2048) S2048.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S2048x1.size a ≤ S2048x1.size a
  hwx0_16 : ∀ i : grid0.Coords, EltTy.bits .bf16 = 32 ∨ (Rect.block (s := S2048x1) S2048x1.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1.size a ≤ S1.size a
  hwx0_17 : ∀ i : grid0.Coords, EltTy.bits .f32 = 32 ∨ (Rect.block (s := S1) S1.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S256x1.size a ≤ S32768x1.size a
  hwx0_18 : ∀ i : grid0.Coords, EltTy.bits .f32 = 32 ∨ (Rect.block (s := S32768x1) S256x1.size (cc0_transform_18 i) (hinb0_18 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x1_S256x1_1_0_0_1_n_n : DotDims S256x2048 S2048x1 S256x1 where
  lhsContracting := [1]
  rhsContracting := [0]
  lhsNonContracting := [0]
  rhsNonContracting := [1]
  lhsBatch := []
  rhsBatch := []
  wf := dot_S256x2048_S2048x1_S256x1_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S1024x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v9) S1024x2048.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S2048.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v11) S2048x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S1.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v12) S256x1.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024 : Shape := ⟨1, ![1024]⟩
abbrev S1024x1024 : Shape := ⟨2, ![1024, 1024]⟩
abbrev S2048x1024 : Shape := ⟨2, ![2048, 1024]⟩
abbrev S2048 : Shape := ⟨1, ![2048]⟩
abbrev S1x2048 : Shape := ⟨2, ![1, 2048]⟩
abbrev S1 : Shape := ⟨1, ![1]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4x256 : Shape := ⟨3, ![32768, 4, 256]⟩
abbrev S32768x4 : Shape := ⟨2, ![32768, 4]⟩
abbrev S32768x4x1 : Shape := ⟨3, ![32768, 4, 1]⟩
abbrev S1024x2048 : Shape := ⟨2, ![1024, 2048]⟩
abbrev S32768x2048 : Shape := ⟨2, ![32768, 2048]⟩
abbrev S2048x1 : Shape := ⟨2, ![2048, 1]⟩
abbrev S1x1 : Shape := ⟨2, ![1, 1]⟩

abbrev nBuf : Space → Nat
  | .hbm => 134
  | .vmem => 0
  | .smem => 0
  | _ => 0

abbrev hbmTy0_0 (i : Nat) : BufTy := match i % 128 with
  | 0 => ⟨S32768x1024, .f32⟩
  | 1 => ⟨S32768x1024, .f32⟩
  | 2 => ⟨S1024, .f32⟩
  | 3 => ⟨S1024, .f32⟩
  | 4 => ⟨S1024, .f32⟩
  | 5 => ⟨S1024, .f32⟩
  | 6 => ⟨S1024x1024, .f32⟩
  | 7 => ⟨S1024x1024, .f32⟩
  | 8 => ⟨S1024x1024, .f32⟩
  | 9 => ⟨S1024, .f32⟩
  | 10 => ⟨S1024, .f32⟩
  | 11 => ⟨S1024, .f32⟩
  | 12 => ⟨S1024x1024, .f32⟩
  | 13 => ⟨S1024, .f32⟩
  | 14 => ⟨S2048x1024, .f32⟩
  | 15 => ⟨S2048, .f32⟩
  | 16 => ⟨S1x2048, .f32⟩
  | 17 => ⟨S1, .f32⟩
  | 18 => ⟨S_, .f32⟩
  | 19 => ⟨S32768, .f32⟩
  | 20 => ⟨S32768x1, .f32⟩
  | 21 => ⟨S_, .f32⟩
  | 22 => ⟨S32768x1, .f32⟩
  | 23 => ⟨S32768x1, .f32⟩
  | 24 => ⟨S32768x1024, .f32⟩
  | 25 => ⟨S32768x1024, .f32⟩
  | 26 => ⟨S32768x1024, .f32⟩
  | 27 => ⟨S_, .f32⟩
  | 28 => ⟨S32768, .f32⟩
  | 29 => ⟨S32768x1, .f32⟩
  | 30 => ⟨S_, .f32⟩
  | 31 => ⟨S32768x1, .f32⟩
  | 32 => ⟨S32768x1, .f32⟩
  | 33 => ⟨S32768x1024, .f32⟩
  | 34 => ⟨S32768x1024, .f32⟩
  | 35 => ⟨S_, .f32⟩
  | 36 => ⟨S32768x1, .f32⟩
  | 37 => ⟨S32768x1, .f32⟩
  | 38 => ⟨S32768x1, .f32⟩
  | 39 => ⟨S32768x1024, .f32⟩
  | 40 => ⟨S32768x1024, .f32⟩
  | 41 => ⟨S1x1024, .f32⟩
  | 42 => ⟨S32768x1024, .f32⟩
  | 43 => ⟨S32768x1024, .f32⟩
  | 44 => ⟨S1x1024, .f32⟩
  | 45 => ⟨S32768x1024, .f32⟩
  | 46 => ⟨S32768x1024, .f32⟩
  | 47 => ⟨S_, .f32⟩
  | 48 => ⟨S32768, .f32⟩
  | 49 => ⟨S32768x1, .f32⟩
  | 50 => ⟨S_, .f32⟩
  | 51 => ⟨S32768x1, .f32⟩
  | 52 => ⟨S32768x1, .f32⟩
  | 53 => ⟨S32768x1024, .f32⟩
  | 54 => ⟨S32768x1024, .f32⟩
  | 55 => ⟨S32768x1024, .f32⟩
  | 56 => ⟨S_, .f32⟩
  | 57 => ⟨S32768, .f32⟩
  | 58 => ⟨S32768x1, .f32⟩
  | 59 => ⟨S_, .f32⟩
  | 60 => ⟨S32768x1, .f32⟩
  | 61 => ⟨S32768x1, .f32⟩
  | 62 => ⟨S32768x1024, .f32⟩
  | 63 => ⟨S32768x1024, .f32⟩
  | 64 => ⟨S_, .f32⟩
  | 65 => ⟨S32768x1, .f32⟩
  | 66 => ⟨S32768x1, .f32⟩
  | 67 => ⟨S32768x1, .f32⟩
  | 68 => ⟨S32768x1024, .f32⟩
  | 69 => ⟨S32768x1024, .f32⟩
  | 70 => ⟨S1x1024, .f32⟩
  | 71 => ⟨S32768x1024, .f32⟩
  | 72 => ⟨S32768x1024, .f32⟩
  | 73 => ⟨S1x1024, .f32⟩
  | 74 => ⟨S32768x1024, .f32⟩
  | 75 => ⟨S32768x1024, .f32⟩
  | 76 => ⟨S1024x1024, .f32⟩
  | 77 => ⟨S32768x1024, .f32⟩
  | 78 => ⟨S1x1024, .f32⟩
  | 79 => ⟨S32768x1024, .f32⟩
  | 80 => ⟨S32768x1024, .f32⟩
  | 81 => ⟨S32768x4x256, .f32⟩
  | 82 => ⟨S1024x1024, .f32⟩
  | 83 => ⟨S32768x1024, .f32⟩
  | 84 => ⟨S1x1024, .f32⟩
  | 85 => ⟨S32768x1024, .f32⟩
  | 86 => ⟨S32768x1024, .f32⟩
  | 87 => ⟨S32768x4x256, .f32⟩
  | 88 => ⟨S1024x1024, .f32⟩
  | 89 => ⟨S32768x1024, .f32⟩
  | 90 => ⟨S1x1024, .f32⟩
  | 91 => ⟨S32768x1024, .f32⟩
  | 92 => ⟨S32768x1024, .f32⟩
  | 93 => ⟨S32768x4x256, .f32⟩
  | 94 => ⟨S32768x4x256, .f32⟩
  | 95 => ⟨S_, .f32⟩
  | 96 => ⟨S32768x4, .f32⟩
  | 97 => ⟨S32768x4x1, .f32⟩
  | 98 => ⟨S_, .f32⟩
  | 99 => ⟨S32768x4x1, .f32⟩
  | 100 => ⟨S32768x4x1, .f32⟩
  | 101 => ⟨S_, .f32⟩
  | 102 => ⟨S32768x4, .f32⟩
  | 103 => ⟨S_, .f32⟩
  | 104 => ⟨S32768x4, .f32⟩
  | 105 => ⟨S32768x4, .f32⟩
  | 106 => ⟨S32768x4x1, .f32⟩
  | 107 => ⟨S32768x4x1, .f32⟩
  | 108 => ⟨S32768x4x1, .f32⟩
  | 109 => ⟨S_, .f32⟩
  | 110 => ⟨S32768x4, .f32⟩
  | 111 => ⟨S32768x4x1, .f32⟩
  | 112 => ⟨S32768x4x1, .f32⟩
  | 113 => ⟨S32768x4x256, .f32⟩
  | 114 => ⟨S32768x4x256, .f32⟩
  | 115 => ⟨S32768x1024, .f32⟩
  | 116 => ⟨S1024x1024, .f32⟩
  | 117 => ⟨S32768x1024, .f32⟩
  | 118 => ⟨S1x1024, .f32⟩
  | 119 => ⟨S32768x1024, .f32⟩
  | 120 => ⟨S32768x1024, .f32⟩
  | 121 => ⟨S1024x2048, .f32⟩
  | 122 => ⟨S32768x2048, .f32⟩
  | 123 => ⟨S1x2048, .f32⟩
  | 124 => ⟨S32768x2048, .f32⟩
  | 125 => ⟨S32768x2048, .f32⟩
  | 126 => ⟨S_, .f32⟩
  | 127 => ⟨S32768x2048, .f32⟩
  | _ => ⟨S32768x1024, .f32⟩

abbrev hbmTy0_1 (i : Nat) : BufTy := match i % 128 with
  | 0 => ⟨S32768x2048, .f32⟩
  | 1 => ⟨S2048x1, .f32⟩
  | 2 => ⟨S32768x1, .f32⟩
  | 3 => ⟨S1x1, .f32⟩
  | 4 => ⟨S32768x1, .f32⟩
  | 5 => ⟨S32768x1, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_cst_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev main_cst_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_6 : Ref sig .tc := ⟨.hbm, 56, rfl⟩
abbrev main_v31 : Ref sig .tc := ⟨.hbm, 57, rfl⟩
abbrev main_v32 : Ref sig .tc := ⟨.hbm, 58, rfl⟩
abbrev main_cst_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_8 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_9 : Ref sig .tc := ⟨.hbm, 95, rfl⟩
abbrev main_v67 : Ref sig .tc := ⟨.hbm, 96, rfl⟩
abbrev main_v68 : Ref sig .tc := ⟨.hbm, 97, rfl⟩
abbrev main_cst_10 : Ref sig .tc := ⟨.hbm, 98, rfl⟩
abbrev main_v69 : Ref sig .tc := ⟨.hbm, 99, rfl⟩
abbrev main_v70 : Ref sig .tc := ⟨.hbm, 100, rfl⟩
abbrev main_cst_11 : Ref sig .tc := ⟨.hbm, 101, rfl⟩
abbrev main_v71 : Ref sig .tc := ⟨.hbm, 102, rfl⟩
abbrev main_cst_12 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_13 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_call0_cst : Ref sig .tc := ⟨.hbm, 126, rfl⟩
abbrev main_call0_v0 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩

abbrev nD : Nat := 1
abbrev τ : Topo := Topo.v7x

variable {F : FTy → Type} [FloatOps F]

class Facts₀ : Prop where
  reducesTo_S32768x1024_S32768_d1 : S32768x1024.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x1024_0_1 : S32768x1.BroadcastsInDim S32768x1024 (![0, 1] : Fin 2 → Fin S32768x1024.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  transposes_S1024x1024_S1024x1024_1_0 : S1024x1024.Transposes [1, 0] S1024x1024
  shapeCasts_S32768x1024_S32768x4x256 : S32768x1024.ShapeCasts S32768x4x256
  reducesTo_S32768x4x256_S32768x4_d2 : S32768x4x256.ReducesTo [2] S32768x4
  bcast_S32768x4_S32768x4x1_0_1 : S32768x4.BroadcastsInDim S32768x4x1 (![0, 1] : Fin 2 → Fin S32768x4x1.rank)
  bcast_S_S32768x4x1 : S_.BroadcastsInDim S32768x4x1 (![] : Fin 0 → Fin S32768x4x1.rank)
  reducesTo_S32768x4x1_S32768x4_d2 : S32768x4x1.ReducesTo [2] S32768x4
  bcast_S_S32768x4 : S_.BroadcastsInDim S32768x4 (![] : Fin 0 → Fin S32768x4.rank)
  bcast_S32768x4x1_S32768x4x256_0_1_2 : S32768x4x1.BroadcastsInDim S32768x4x256 (![0, 1, 2] : Fin 3 → Fin S32768x4x256.rank)
  shapeCasts_S32768x4x256_S32768x1024 : S32768x4x256.ShapeCasts S32768x1024
  transposes_S2048x1024_S1024x2048_1_0 : S2048x1024.Transposes [1, 0] S1024x2048
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  bcast_S_S32768x2048 : S_.BroadcastsInDim S32768x2048 (![] : Fin 0 → Fin S32768x2048.rank)
  transposes_S1x2048_S2048x1_1_0 : S1x2048.Transposes [1, 0] S2048x1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  dot_S32768x1024_S1024x1024_S32768x1024_1_0_0_1_n_n_wf : DotDims.WF S32768x1024 S1024x1024 S32768x1024 [1] [0] [0] [1] [] []
  dot_S32768x1024_S1024x2048_S32768x2048_1_0_0_1_n_n_wf : DotDims.WF S32768x1024 S1024x2048 S32768x2048 [1] [0] [0] [1] [] []
  dot_S32768x2048_S2048x1_S32768x1_1_0_0_1_n_n_wf : DotDims.WF S32768x2048 S2048x1 S32768x1 [1] [0] [0] [1] [] []

variable [Facts₀]

def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf
def dot_S32768x1024_S1024x2048_S32768x2048_1_0_0_1_n_n : DotDims S32768x1024 S1024x2048 S32768x2048 where
  lhsContracting := [1]
  rhsContracting := [0]
  lhsNonContracting := [0]
  rhsNonContracting := [1]
  lhsBatch := []
  rhsBatch := []
  wf := dot_S32768x1024_S1024x2048_S32768x2048_1_0_0_1_n_n_wf
def dot_S32768x2048_S2048x1_S32768x1_1_0_0_1_n_n : DotDims S32768x2048 S2048x1 S32768x1 where
  lhsContracting := [1]
  rhsContracting := [0]
  lhsNonContracting := [0]
  rhsNonContracting := [1]
  lhsBatch := []
  rhsBatch := []
  wf := dot_S32768x2048_S2048x1_S32768x1_1_0_0_1_n_n_wf

class Facts : Prop extends Facts₀ where

variable [Facts]
-- ==== Proof.Columns.lean ====
import Idealize.ShloMosaic.Lib.Pipeline.Value
import Idealize.ShloMosaic.Lib.ValueIdx
import Idealize.ShloMosaic.Lib.ValueLayout
import Idealize.ShloMosaic.PureOps.Ideal.Laws

/-! Reading a column vector: a vector of row statistics [a] is kept as a column [a, 1], and a column is
    repeated along every row's entries [a, b]. -/

noncomputable section

namespace Cert.Columns

open Idealize.ShloMosaic Idealize.ShloMosaic.ValueIdx

variable {α : Type}

/-- A vector [a] cast to a column [a, 1] reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

/-- Every index of a column [a, 1] is (p, 0). -/
theorem eq_ix2_col {a : ℕ} (j : (⟨2, ![a, 1]⟩ : Shape).Idx) : j = ix2 (j 0) (0 : Fin 1) := by
  have h : j 1 = (0 : Fin 1) := Fin.ext (by have hlt : (j 1).val < 1 := (j 1).isLt; show (j 1).val = 0; omega)
  rw [← h]
  exact eq_ix2 j

end Cert.Columns

end
-- ==== Proof.RowReduce.lean ====
import Idealize.ShloMosaic.Lib.Pipeline.Value
import Idealize.ShloMosaic.Lib.ValueIdx
import Idealize.ShloMosaic.PureOps.Ideal.Laws

/-! The sum and the maximum of a row of a matrix [a, b], read at the row's number, on the extended reals. -/

noncomputable section

namespace Cert.RowReduce

open Idealize.ShloMosaic Idealize.ShloMosaic.ValueIdx

/-- The lane sum of a matrix, at row p, is the sum of that row's entries. -/
theorem rowSum_apply {a b : ℕ} (src : FVec Ideal ⟨2, ![a, b]⟩ .f32)
    (h : Shape.Reduces ⟨2, ![a, b]⟩ [1] ⟨1, ![a]⟩) (hacc : (0x00000000#32 : BitVec 32) = 0x00000000#32) (p : Fin a) :
    multiReduction .add [1] ⟨1, ![a]⟩ src 0x00000000#32 h (.inl rfl) hacc (ix1 p) = ∑ k : Fin b, src (ix2 p k) := by
  refine (Ideal.multiReduction_add_single src 0x00000000#32 h (.inl rfl) hacc (ix1 p)).trans ?_
  exact Finset.sum_congr rfl fun k _ => congrArg src (funext fun ax => Fin.ext (by
    match ax with
    | ⟨0, _⟩ => rfl
    | ⟨1, _⟩ => rfl))

/-- The lane maximum of a matrix, at row p, is the fold of max over that row's entries from the starting value. -/
theorem rowMax_apply {a b : ℕ} (src : FVec Ideal ⟨2, ![a, b]⟩ .f32)
    (h : Shape.Reduces ⟨2, ![a, b]⟩ [1] ⟨1, ![a]⟩) (hacc : (0xFF800000#32 : BitVec 32) = 0xFF800000#32) (p : Fin a) :
    multiReduction .maximumf [1] ⟨1, ![a]⟩ src 0xFF800000#32 h (.inl rfl) hacc (ix1 p)
      = (Finset.univ : Finset (Fin b)).fold max (Ideal.ofBits .f32 0xFF800000#32) (fun k => src (ix2 p k)) := by
  refine (Ideal.multiReduction_maximumf_single src 0xFF800000#32 h (.inl rfl) hacc (ix1 p)).trans ?_
  refine congrArg (Finset.fold max _ · _) (funext fun k => ?_)
  exact congrArg src (funext fun ax => Fin.ext (by
    match ax with
    | ⟨0, _⟩ => rfl
    | ⟨1, _⟩ => rfl))

end Cert.RowReduce

end
-- ==== Proof.RowSpec.lean ====
import Idealize.ShloMosaic.PureOps.Ideal
import Idealize.ShloMosaic.PureOps.Ideal.Laws
import Idealize.ShloMosaic.Lib.ValueIdx

/-! The score of ONE row, as a function of that row of the two feature arrays and of the weights, on the extended
    reals. Every output row depends only on its own row of the context and candidate features:
      qin  = LayerNorm(x),  kvin = LayerNorm(c)            (mean and variance over the 1024 features)
      q = Wq qin + bq,  k = Wk kvin + bk,  v = Wv kvin + bv
      for each of the 4 heads (256 features each): the score s = (sum of q k over the head) / 16, the softmax over
        the ONE key, whose weight is exp(s - s) / exp(s - s), and the head's output, the weight times v
      a = Wo o + bo,  h = max(W1 a + b1, 0),  score = W2 h + b2.
    The float literals are kept as their words. -/

noncomputable section

namespace Cert.RowSpec

open Idealize.ShloMosaic Idealize.ShloMosaic.ValueIdx

/-- A row of n extended reals. -/
abbrev Row (n : ℕ) := Fin n → EReal

/-- The number of features, 1024.0. -/
def count : EReal := Ideal.ofBits .f32 0x44800000#32
/-- The variance's guard, the float nearest 1e-5. -/
def eps : EReal := Ideal.ofBits .f32 0x3727C5AC#32
/-- One over the square root of the head size, 1/16. -/
def scale : EReal := Ideal.ofBits .f32 0x3D800000#32
/-- The float zero. -/
def zero : EReal := Ideal.ofBits .f32 0x00000000#32

def mean (x : Row 1024) : EReal := Ideal.div (∑ k, x k) count

def centered (x : Row 1024) : Row 1024 := fun j => x j - mean x

def variance (x : Row 1024) : EReal := mean (fun k => centered x k * centered x k)

def normed (x : Row 1024) : Row 1024 := fun j => centered x j * Ideal.rsqrt (variance x + eps)

def layerNorm (x w b : Row 1024) : Row 1024 := fun j => normed x j * w j + b j

/-- A linear layer with the weight stored [out, in]: entry j is the sum over k of v k times W j k, plus the bias. -/
def linear {n m : ℕ} (W : Fin m → Fin n → EReal) (bias : Row m) (v : Row n) : Row m :=
  fun j => (∑ k, v k * W j k) + bias j

/-- Feature d of head h. -/
def col (h : Fin 4) (d : Fin 256) : Fin 1024 := ⟨h.val * 256 + d.val, by omega⟩

/-- The head a feature belongs to. -/
def headOf (j : Fin 1024) : Fin 4 := ⟨j.val / 256, by omega⟩

def headScore (q k : Row 1024) (h : Fin 4) : EReal := (∑ d : Fin 256, q (col h d) * k (col h d)) * scale

/-- The softmax weight of the one key: the maximum over one score is that score. -/
def weight (s : EReal) : EReal := Ideal.div (Ideal.exp (s - s)) (Ideal.exp (s - s))

def attended (q k v : Row 1024) : Row 1024 := fun j => weight (headScore q k (headOf j)) * v j

def relu (y : EReal) : EReal := max y zero

def score (x c lnqw lnqb lnkw lnkb : Row 1024) (wq wk wv : Fin 1024 → Fin 1024 → EReal) (bq bk bv : Row 1024)
    (wo : Fin 1024 → Fin 1024 → EReal) (bo : Row 1024) (w1 : Fin 2048 → Fin 1024 → EReal) (b1 : Row 2048)
    (w2 : Fin 1 → Fin 2048 → EReal) (b2 : Row 1) : EReal :=
  linear w2 b2 (fun j => relu (linear w1 b1 (linear wo bo (attended (linear wq bq (layerNorm x lnqw lnqb))
    (linear wk bk (layerNorm c lnkw lnkb)) (linear wv bv (layerNorm c lnkw lnkb)))) j)) 0

/-- The whole result array [32768, 1] as one function of the eighteen argument arrays. -/
def G (x0 x1 : (⟨2, ![32768, 1024]⟩ : Shape).Idx → EReal) (x2 x3 x4 x5 : (⟨1, ![1024]⟩ : Shape).Idx → EReal)
    (x6 x7 x8 : (⟨2, ![1024, 1024]⟩ : Shape).Idx → EReal) (x9 x10 x11 : (⟨1, ![1024]⟩ : Shape).Idx → EReal)
    (x12 : (⟨2, ![1024, 1024]⟩ : Shape).Idx → EReal) (x13 : (⟨1, ![1024]⟩ : Shape).Idx → EReal)
    (x14 : (⟨2, ![2048, 1024]⟩ : Shape).Idx → EReal) (x15 : (⟨1, ![2048]⟩ : Shape).Idx → EReal)
    (x16 : (⟨2, ![1, 2048]⟩ : Shape).Idx → EReal) (x17 : (⟨1, ![1]⟩ : Shape).Idx → EReal) :
    (⟨2, ![32768, 1]⟩ : Shape).Idx → EReal := fun i =>
  score (fun k => x0 (ix2 (i 0 : Fin 32768) k)) (fun k => x1 (ix2 (i 0 : Fin 32768) k))
    (fun k => x2 (ix1 k)) (fun k => x3 (ix1 k)) (fun k => x4 (ix1 k)) (fun k => x5 (ix1 k))
    (fun j k => x6 (ix2 j k)) (fun j k => x7 (ix2 j k)) (fun j k => x8 (ix2 j k))
    (fun k => x9 (ix1 k)) (fun k => x10 (ix1 k)) (fun k => x11 (ix1 k))
    (fun j k => x12 (ix2 j k)) (fun k => x13 (ix1 k)) (fun j k => x14 (ix2 j k)) (fun k => x15 (ix1 k))
    (fun j k => x16 (ix2 j k)) (fun k => x17 (ix1 k))

/-! Small facts both programs' sides use about a row with ONE entry and about the two special words. -/

/-- The float zero word is the real zero. -/
theorem zero_eq : zero = 0 := Ideal.ofBits_zero_f32

/-- Minus infinity is the neutral element of max. -/
theorem max_negInf_left (y : EReal) : max (Ideal.ofBits .f32 0xFF800000#32) y = y := by
  simp [Ideal.ofBits, Ideal.ieee]

theorem max_negInf_right (y : EReal) : max y (Ideal.ofBits .f32 0xFF800000#32) = y := by
  rw [max_comm]; exact max_negInf_left y

/-- The maximum over a row of one entry, from minus infinity, is that entry. -/
theorem foldMax_one (f : Fin 1 → EReal) :
    (Finset.univ : Finset (Fin 1)).fold max (Ideal.ofBits .f32 0xFF800000#32) f = f 0 := by
  rw [show (Finset.univ : Finset (Fin 1)) = {0} from rfl, Finset.fold_singleton]
  exact max_negInf_right _

/-- The sum over a row of one entry is that entry. -/
theorem sum_one (f : Fin 1 → EReal) : ∑ k, f k = f 0 := Fin.sum_univ_one f

end Cert.RowSpec

end
-- ==== Proof.BlockHeads.lean ====
import proofs.«105981_j67894843015729_1_alg».proof.Proof.Gen.KernelIdeal.Skeleton
import proofs.«105981_j67894843015729_1_alg».proof.Proof.Columns
import proofs.«105981_j67894843015729_1_alg».proof.Proof.RowReduce
import proofs.«105981_j67894843015729_1_alg».proof.Proof.RowSpec
import Idealize.ShloMosaic.Lib.ValueLayout
import Idealize.ShloMosaic.Lib.Pipeline.Value

/-! One attention head of the block. A head takes 256 consecutive columns of the projected blocks q, k, v (an offset
    o = 0, 256, 512, 768): its score column is the row sum of q k over those columns times 1/16; the softmax runs over
    ONE key, so its maximum is the score itself and the weight is exp(s - s) / exp(s - s); the head's piece of the
    attended block is the weight times v on those columns. The body computes the four heads with the same
    operations, so one statement serves all four. -/

noncomputable section

namespace Cert.KernelIdeal.BlockHeads

open Cert.KernelIdeal Cert.KernelIdeal.Gen Idealize.ShloMosaic Idealize.ShloMosaic.ValueIdx

section AnyInstance

variable {F : FTy → Type} [FloatOps F]

/-- The score column of the head at column offset o. -/
def scoreCol (o : ℕ) (hs : S256x1024.Slices ![0, o] S256x256) (Q K : FVec F S256x1024 .f32) : FVec F S256x1 .f32 :=
  mulf (shapeCast S256x1 (multiReduction .add [1] S256
      (mulf (extractStridedSlice S256x256 ![0, o] Q hs) (extractStridedSlice S256x256 ![0, o] K hs))
      0x00000000#32 reduces_S256x256_S256 (.inl rfl) rfl) shapeCasts_S256_S256x1)
    (broadcast S256x1 (Scalar.ofBits .f32 0x3D800000#32))

/-- The maximum of a score column over its one key, from minus infinity. -/
def maxCol (s : FVec F S256x1 .f32) : FVec F S256x1 .f32 :=
  shapeCast S256x1 (maximumf (broadcast S256 (Scalar.ofBits .f32 0xFF800000#32))
    (multiReduction .maximumf [1] S256 s 0xFF800000#32 reduces_S256x1_S256 (.inl rfl) rfl)) shapeCasts_S256_S256x1

/-- The softmax weight column of scores s with maximum m, times the head's columns W of v. -/
def weighted (W : FVec F S256x256 .f32) (s m : FVec F S256x1 .f32) : FVec F S256x256 .f32 :=
  shapeCast S256x256 (mulf (broadcastTo S256x256 (divf (exp (subf s m))
      (shapeCast S256x1 (multiReduction .add [1] S256 (exp (subf s m)) 0x00000000#32 reduces_S256x1_S256 (.inl rfl) rfl)
        shapeCasts_S256_S256x1)) broadcasts_S256x1_S256x256) W) shapeCasts_S256x256_S256x256

/-- The head's piece of the attended block. -/
def headPiece (o : ℕ) (hs : S256x1024.Slices ![0, o] S256x256) (Q K V : FVec F S256x1024 .f32) : FVec F S256x256 .f32 :=
  weighted (extractStridedSlice S256x256 ![0, o] V hs) (scoreCol o hs Q K) (maxCol (scoreCol o hs Q K))

/-! The body's four heads are this piece at the four offsets. -/

theorem piece0_eq (v25 : FVec F S256x1024 .f32) (v41 : FVec F S256x1024 .f32) (v42 v46 : Vec F S1024 .f32)
    (v52 : Vec F S1024x1024 .bf16) (v55 : Vec F S1024 .f32) (v59 : Vec F S1024x1024 .bf16) (v62 : Vec F S1024 .f32)
    (v66 : Vec F S1024x1024 .bf16) (v69 : Vec F S1024 .f32) :
    k0_pay11 (k0_pay8 v41 v42 v46 v66 v69) (k0_pay9 v25 v41 v42 v46 v52 v55 v59 v62) (k0_pay10 v25 v41 v42 v46 v52 v55 v59 v62)
      = headPiece 0 slices_S256x1024_o0_0_S256x256 (k0_pay5 v25 v52 v55) (k0_pay6 v41 v42 v46 v59 v62) (k0_pay7 v41 v42 v46 v66 v69) := rfl

theorem piece1_eq (Q K V : FVec F S256x1024 .f32) :
    k0_pay12 Q K V = headPiece 256 slices_S256x1024_o0_256_S256x256 Q K V := rfl

theorem piece2_eq (Q K V : FVec F S256x1024 .f32) :
    k0_pay16 (k0_pay13 V) (k0_pay14 Q K) (k0_pay15 Q K) = headPiece 512 slices_S256x1024_o0_512_S256x256 Q K V := rfl

theorem piece3_eq (Q K V : FVec F S256x1024 .f32) :
    k0_pay17 Q K V = headPiece 768 slices_S256x1024_o0_768_S256x256 Q K V := rfl

end AnyInstance

/-! On the extended reals. -/

/-- The score column at row p: the sum over the head's 256 columns of q k, times 1/16. -/
theorem scoreCol_apply (o : ℕ) (h : Fin 4) (ho : o = h.val * 256) (hs : S256x1024.Slices ![0, o] S256x256)
    (Q K : FVec Ideal S256x1024 .f32) (p : Fin 256) (u : Fin 1) :
    scoreCol (F := Ideal) o hs Q K (ix2 p u)
      = Cert.RowSpec.headScore (fun k => Q (ix2 p k)) (fun k => K (ix2 p k)) h := by
  unfold scoreCol
  show shapeCast S256x1 (multiReduction .add [1] S256
      (mulf (extractStridedSlice S256x256 ![0, o] Q hs) (extractStridedSlice S256x256 ![0, o] K hs))
      0x00000000#32 reduces_S256x256_S256 (.inl rfl) rfl) shapeCasts_S256_S256x1 (ix2 p u) * Ideal.ofBits .f32 0x3D800000#32 = _
  rw [Cert.Columns.shapeCast_a_a1_apply, Cert.RowReduce.rowSum_apply]
  unfold Cert.RowSpec.headScore Cert.RowSpec.scale
  refine congrArg (· * _) (Finset.sum_congr rfl fun d _ => ?_)
  show extractStridedSlice S256x256 ![0, o] Q hs (ix2 p d) * extractStridedSlice S256x256 ![0, o] K hs (ix2 p d) = _
  rw [slice2_axis1_apply o Q hs p d (Cert.RowSpec.col h d) (by show h.val * 256 + d.val = o + d.val; omega),
    slice2_axis1_apply o K hs p d (Cert.RowSpec.col h d) (by show h.val * 256 + d.val = o + d.val; omega)]

/-- The maximum over one key is the score. -/
theorem maxCol_apply (s : FVec Ideal S256x1 .f32) (p : Fin 256) (u : Fin 1) :
    maxCol (F := Ideal) s (ix2 p u) = s (ix2 p (0 : Fin 1)) := by
  unfold maxCol
  rw [Cert.Columns.shapeCast_a_a1_apply]
  show max (Ideal.ofBits .f32 0xFF800000#32)
    (multiReduction .maximumf [1] S256 s 0xFF800000#32 reduces_S256x1_S256 (.inl rfl) rfl (ix1 p)) = _
  rw [Cert.RowReduce.rowMax_apply, Cert.RowSpec.foldMax_one, Cert.RowSpec.max_negInf_left]

/-- The weighted columns at (p, d). -/
theorem weighted_apply (W : FVec Ideal S256x256 .f32) (s m : FVec Ideal S256x1 .f32) (p : Fin 256) (d : Fin 256) :
    weighted (F := Ideal) W s m (ix2 p d)
      = Ideal.div (Ideal.exp (s (ix2 p (0 : Fin 1)) - m (ix2 p (0 : Fin 1))))
          (Ideal.exp (s (ix2 p (0 : Fin 1)) - m (ix2 p (0 : Fin 1)))) * W (ix2 p d) := by
  unfold weighted
  rw [shapeCast_self]
  show broadcastTo S256x256 (divf (exp (subf s m))
      (shapeCast S256x1 (multiReduction .add [1] S256 (exp (subf s m)) 0x00000000#32 reduces_S256x1_S256 (.inl rfl) rfl)
        shapeCasts_S256_S256x1)) broadcasts_S256x1_S256x256 (ix2 p d) * W (ix2 p d) = _
  rw [Cert.Columns.broadcastTo_a1_ab_apply]
  show Ideal.div (Ideal.exp (s (ix2 p (0 : Fin 1)) - m (ix2 p (0 : Fin 1))))
      (shapeCast S256x1 (multiReduction .add [1] S256 (exp (subf s m)) 0x00000000#32 reduces_S256x1_S256 (.inl rfl) rfl)
        shapeCasts_S256_S256x1 (ix2 p (0 : Fin 1))) * W (ix2 p d) = _
  rw [Cert.Columns.shapeCast_a_a1_apply, Cert.RowReduce.rowSum_apply, Cert.RowSpec.sum_one]
  rfl

/-- The head's piece at (p, d) is the attended row p at the head's column d. -/
theorem headPiece_apply (o : ℕ) (h : Fin 4) (ho : o = h.val * 256) (hs : S256x1024.Slices ![0, o] S256x256)
    (Q K V : FVec Ideal S256x1024 .f32) (p : Fin 256) (d : Fin 256) :
    headPiece (F := Ideal) o hs Q K V (ix2 p d)
      = Cert.RowSpec.attended (fun k => Q (ix2 p k)) (fun k => K (ix2 p k)) (fun k => V (ix2 p k)) (Cert.RowSpec.col h d) := by
  unfold headPiece
  rw [weighted_apply, maxCol_apply, scoreCol_apply o h ho hs Q K p 0,
    slice2_axis1_apply o V hs p d (Cert.RowSpec.col h d) (by show h.val * 256 + d.val = o + d.val; omega)]
  have hh : Cert.RowSpec.headOf (Cert.RowSpec.col h d) = h := Fin.ext (by
    have h4 : h.val < 4 := h.isLt
    have hd : d.val < 256 := d.isLt
    show (h.val * 256 + d.val) / 256 = h.val
    omega)
  unfold Cert.RowSpec.attended Cert.RowSpec.weight
  rw [hh]

end Cert.KernelIdeal.BlockHeads

end
-- ==== Proof.RowMatmul.lean ====
import proofs.«105981_j67894843015729_1_alg».proof.Proof.Gen.KernelIdeal
import Idealize.ShloMosaic.Lib.ValueIdx
import Idealize.ShloMosaic.PureOps.Ideal.Laws

/-! The kernel body's three matrix products, read at a row: each entry of the product is a plain sum over the
    contracted axis, on the extended reals. The three statements are one argument at the three product shapes. -/

noncomputable section

namespace Cert.KernelIdeal.RowMatmul

open Cert.KernelIdeal Idealize.ShloMosaic Idealize.ShloMosaic.ValueIdx

/-- The product of an [256, 1024] block with a [1024, 1024] matrix into a zero accumulator, at (p, j): the sum over k of
    the block's row p at k times the matrix's column j at k. -/
theorem matmul_square (lhs : FVec Ideal S256x1024 .bf16) (rhs : FVec Ideal S1024x1024 .bf16) (p : Fin 256) (j : Fin 1024) :
    matmul dot_S256x1024_S1024x1024_S256x1024_1_0_0_1_n_n none lhs rhs (constant S256x1024 .f32 0x00000000#32) (ix2 p j)
      = ∑ k : Fin 1024, lhs (ix2 p k) * rhs (ix2 k j) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have l0 : ∀ q : dot_S256x1024_S1024x1024_S256x1024_1_0_0_1_n_n.contr.Idx, (dot_S256x1024_S1024x1024_S256x1024_1_0_0_1_n_n.lhsIdx (ix2 p j) q 0).val = p.val := fun q => by
    unfold DotDims.lhsIdx
    rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
    rfl
  have l1 : ∀ q : dot_S256x1024_S1024x1024_S256x1024_1_0_0_1_n_n.contr.Idx, (dot_S256x1024_S1024x1024_S256x1024_1_0_0_1_n_n.lhsIdx (ix2 p j) q 1).val = (q ⟨0, by decide⟩).val := fun q =>
    dot_S256x1024_S1024x1024_S256x1024_1_0_0_1_n_n.lhsIdx_val_of_single rfl (ix2 p j) q
  have r0 : ∀ q : dot_S256x1024_S1024x1024_S256x1024_1_0_0_1_n_n.contr.Idx, (dot_S256x1024_S1024x1024_S256x1024_1_0_0_1_n_n.rhsIdx (ix2 p j) q 0).val = (q ⟨0, by decide⟩).val := fun q =>
    dot_S256x1024_S1024x1024_S256x1024_1_0_0_1_n_n.rhsIdx_val_of_single rfl (ix2 p j) q
  have r1 : ∀ q : dot_S256x1024_S1024x1024_S256x1024_1_0_0_1_n_n.contr.Idx, (dot_S256x1024_S1024x1024_S256x1024_1_0_0_1_n_n.rhsIdx (ix2 p j) q 1).val = j.val := fun q => by
    unfold DotDims.rhsIdx
    rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
    rfl
  have el : dot_S256x1024_S1024x1024_S256x1024_1_0_0_1_n_n.lhsIdx (ix2 p j) ((contrEquiv1 dot_S256x1024_S1024x1024_S256x1024_1_0_0_1_n_n 1024 rfl rfl).symm k) = ix2 p k := funext fun a => Fin.ext (by
    match a with
    | ⟨0, _⟩ => exact l0 _
    | ⟨1, _⟩ => exact (l1 _).trans hk)
  have er : dot_S256x1024_S1024x1024_S256x1024_1_0_0_1_n_n.rhsIdx (ix2 p j) ((contrEquiv1 dot_S256x1024_S1024x1024_S256x1024_1_0_0_1_n_n 1024 rfl rfl).symm k) = ix2 k j := funext fun a => Fin.ext (by
    match a with
    | ⟨0, _⟩ => exact (r0 _).trans hk
    | ⟨1, _⟩ => exact r1 _)
  rw [el, er]

/-- The product of an [256, 1024] block with a [1024, 2048] matrix into a zero accumulator, at (p, j): the sum over k of
    the block's row p at k times the matrix's column j at k. -/
theorem matmul_wide (lhs : FVec Ideal S256x1024 .bf16) (rhs : FVec Ideal S1024x2048 .bf16) (p : Fin 256) (j : Fin 2048) :
    matmul dot_S256x1024_S1024x2048_S256x2048_1_0_0_1_n_n none lhs rhs (constant S256x2048 .f32 0x00000000#32) (ix2 p j)
      = ∑ k : Fin 1024, lhs (ix2 p k) * rhs (ix2 k j) := by
  simp only [matmul]
  rw [Ideal.matmul_constant_zero_apply, ← Equiv.sum_comp (contrEquiv1 dot_S256x1024_S1024x2048_S256x2048_1_0_0_1_n_n 1024 rfl rfl).symm]
  refine Finset.sum_congr rfl fun k _ => ?_
  have hk := contrEquiv1_symm_val dot_S256x1024_S1024x2048_S256x2048_1_0_0_1_n_n 1024 rfl rfl k
  have l0 : ∀ q : dot_S256x1024_S1024x2048_S256x2048_1_0_0_1_n_n.contr.Idx, (dot_S256x1024_S1024x2048_S256x2048_1_0_0_1_n_n.lhsIdx (ix2 p j) q 0).val = p.val := fun q => by
    unfold DotDims.lhsIdx
    rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
    rfl
  have l1 : ∀ q : dot_S256x1024_S1024x2048_S256x2048_1_0_0_1_n_n.contr.Idx, (dot_S256x1024_S1024x2048_S256x2048_1_0_0_1_n_n.lhsIdx (ix2 p j) q 1).val = (q ⟨0, by decide⟩).val := fun q =>
    dot_S256x1024_S1024x2048_S256x2048_1_0_0_1_n_n.lhsIdx_val_of_single rfl (ix2 p j) q
  have r0 : ∀ q : dot_S256x1024_S1024x2048_S256x2048_1_0_0_1_n_n.contr.Idx, (dot_S256x1024_S1024x2048_S256x2048_1_0_0_1_n_n.rhsIdx (ix2 p j) q 0).val = (q ⟨0, by decide⟩).val := fun q =>
    dot_S256x1024_S1024x2048_S256x2048_1_0_0_1_n_n.rhsIdx_val_of_single rfl (ix2 p j) q
  have r1 : ∀ q : dot_S256x1024_S1024x2048_S256x2048_1_0_0_1_n_n.contr.Idx, (dot_S256x1024_S1024x2048_S256x2048_1_0_0_1_n_n.rhsIdx (ix2 p j) q 1).val = j.val := fun q => by
    unfold DotDims.rhsIdx
    rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
    rfl
  have el : dot_S256x1024_S1024x2048_S256x2048_1_0_0_1_n_n.lhsIdx (ix2 p j) ((contrEquiv1 dot_S256x1024_S1024x2048_S256x2048_1_0_0_1_n_n 1024 rfl rfl).symm k) = ix2 p k := funext fun a => Fin.ext (by
    match a with
    | ⟨0, _⟩ => exact l0 _
    | ⟨1, _⟩ => exact (l1 _).trans hk)
  have er : dot_S256x1024_S1024x2048_S256x2048_1_0_0_1_n_n.rhsIdx (ix2 p j) ((contrEquiv1 dot_S256x1024_S1024x2048_S256x2048_1_0_0_1_n_n 1024 rfl rfl).symm k) = ix2 k j := funext fun a => Fin.ext (by
    match a with
    | ⟨0, _⟩ => exact (r0 _).trans hk
    | ⟨1, _⟩ => exact r1 _)
  rw [el, er]

/-- The product of an [256, 2048] block with a [2048, 1] matrix into a zero accumulator, at (p, j): the sum over k of
    the block's row p at k times the matrix's column j at k. -/
theorem matmul_column (lhs : FVec Ideal S256x2048 .bf16) (rhs : FVec Ideal S2048x1 .bf16) (p : Fin 256) (j : Fin 1) :
    matmul dot_S256x2048_S2048x1_S256x1_1_0_0_1_n_n none lhs rhs (constant S256x1 .f32 0x00000000#32) (ix2 p j)
      = ∑ k : Fin 2048, lhs (ix2 p k) * rhs (ix2 k j) := by
  simp only [matmul]
  rw [Ideal.matmul_constant_zero_apply, ← Equiv.sum_comp (contrEquiv1 dot_S256x2048_S2048x1_S256x1_1_0_0_1_n_n 2048 rfl rfl).symm]
  refine Finset.sum_congr rfl fun k _ => ?_
  have hk := contrEquiv1_symm_val dot_S256x2048_S2048x1_S256x1_1_0_0_1_n_n 2048 rfl rfl k
  have l0 : ∀ q : dot_S256x2048_S2048x1_S256x1_1_0_0_1_n_n.contr.Idx, (dot_S256x2048_S2048x1_S256x1_1_0_0_1_n_n.lhsIdx (ix2 p j) q 0).val = p.val := fun q => by
    unfold DotDims.lhsIdx
    rw [dif_neg (show ¬(0 : Fin S256x2048.rank) ∈ dot_S256x2048_S2048x1_S256x1_1_0_0_1_n_n.lhsBatch by decide), dif_pos (show (0 : Fin S256x2048.rank) ∈ dot_S256x2048_S2048x1_S256x1_1_0_0_1_n_n.lhsNonContracting by decide)]
    rfl
  have l1 : ∀ q : dot_S256x2048_S2048x1_S256x1_1_0_0_1_n_n.contr.Idx, (dot_S256x2048_S2048x1_S256x1_1_0_0_1_n_n.lhsIdx (ix2 p j) q 1).val = (q ⟨0, by decide⟩).val := fun q =>
    dot_S256x2048_S2048x1_S256x1_1_0_0_1_n_n.lhsIdx_val_of_single rfl (ix2 p j) q
  have r0 : ∀ q : dot_S256x2048_S2048x1_S256x1_1_0_0_1_n_n.contr.Idx, (dot_S256x2048_S2048x1_S256x1_1_0_0_1_n_n.rhsIdx (ix2 p j) q 0).val = (q ⟨0, by decide⟩).val := fun q =>
    dot_S256x2048_S2048x1_S256x1_1_0_0_1_n_n.rhsIdx_val_of_single rfl (ix2 p j) q
  have r1 : ∀ q : dot_S256x2048_S2048x1_S256x1_1_0_0_1_n_n.contr.Idx, (dot_S256x2048_S2048x1_S256x1_1_0_0_1_n_n.rhsIdx (ix2 p j) q 1).val = j.val := fun q => by
    unfold DotDims.rhsIdx
    rw [dif_neg (show ¬(1 : Fin S2048x1.rank) ∈ dot_S256x2048_S2048x1_S256x1_1_0_0_1_n_n.rhsBatch by decide), dif_pos (show (1 : Fin S2048x1.rank) ∈ dot_S256x2048_S2048x1_S256x1_1_0_0_1_n_n.rhsNonContracting by decide)]
    rfl
  have el : dot_S256x2048_S2048x1_S256x1_1_0_0_1_n_n.lhsIdx (ix2 p j) ((contrEquiv1 dot_S256x2048_S2048x1_S256x1_1_0_0_1_n_n 2048 rfl rfl).symm k) = ix2 p k := funext fun a => Fin.ext (by
    match a with
    | ⟨0, _⟩ => exact l0 _
    | ⟨1, _⟩ => exact (l1 _).trans hk)
  have er : dot_S256x2048_S2048x1_S256x1_1_0_0_1_n_n.rhsIdx (ix2 p j) ((contrEquiv1 dot_S256x2048_S2048x1_S256x1_1_0_0_1_n_n 2048 rfl rfl).symm k) = ix2 k j := funext fun a => Fin.ext (by
    match a with
    | ⟨0, _⟩ => exact (r0 _).trans hk
    | ⟨1, _⟩ => exact r1 _)
  rw [el, er]

end Cert.KernelIdeal.RowMatmul

end
-- ==== Proof.BlockTail.lean ====
import proofs.«105981_j67894843015729_1_alg».proof.Proof.Gen.KernelIdeal.Skeleton
import proofs.«105981_j67894843015729_1_alg».proof.Proof.BlockHeads
import proofs.«105981_j67894843015729_1_alg».proof.Proof.RowMatmul
import Idealize.ShloMosaic.Lib.ValueLayout
import Idealize.ShloMosaic.Lib.Ring
import Idealize.ShloMosaic.Lib.Tactic
import Idealize.ShloMosaic.Lib.Pipeline.Value

/-! After the heads. The four heads' pieces are stored side by side into one [256, 1024] scratch block, which therefore
    holds the attended block: row p, column j is the softmax weight of j's head in row p times v there. The output
    projection, the hidden layer with its maximum against zero and the last layer's one column are three matrix products
    with a bias row each, read at row p as plain sums. -/

noncomputable section

namespace Cert.KernelIdeal.BlockTail

open Cert.KernelIdeal Cert.KernelIdeal.Gen Idealize.ShloMosaic Idealize.ShloMosaic.ValueIdx Idealize.ShloMosaic.Tactic
open Cert.KernelIdeal.BlockHeads

/-- The attended block as one function of the scratch block's index. -/
def attendedBlock (Q K V : FVec Ideal S256x1024 .f32) : S256x1024.Idx → EReal := fun y =>
  Cert.RowSpec.attended (fun k => Q (ix2 (y 0 : Fin 256) k)) (fun k => K (ix2 (y 0 : Fin 256) k))
    (fun k => V (ix2 (y 0 : Fin 256) k)) (y 1 : Fin 1024)

theorem attendedBlock_ix2 (Q K V : FVec Ideal S256x1024 .f32) (p : Fin 256) (j : Fin 1024) :
    attendedBlock Q K V (ix2 p j)
      = Cert.RowSpec.attended (fun k => Q (ix2 p k)) (fun k => K (ix2 p k)) (fun k => V (ix2 p k)) j := rfl

/-- The four heads' pieces, the last stored first. -/
def headPieces (Q K V : FVec Ideal S256x1024 .f32) : List (View.Piece (Elt Ideal) S256x1024 .f32) :=
  [⟨Rect.unit ![0, 768] S256x256.size inb_S256x1024_S256x256_0_768, headPiece 768 slices_S256x1024_o0_768_S256x256 Q K V⟩,
   ⟨Rect.unit ![0, 512] S256x256.size inb_S256x1024_S256x256_0_512, headPiece 512 slices_S256x1024_o0_512_S256x256 Q K V⟩,
   ⟨Rect.unit ![0, 256] S256x256.size inb_S256x1024_S256x256_0_256, headPiece 256 slices_S256x1024_o0_256_S256x256 Q K V⟩,
   ⟨Rect.unit ![0, 0] S256x256.size inb_S256x1024_S256x256_0_0, headPiece 0 slices_S256x1024_o0_0_S256x256 Q K V⟩]

/-- A head's piece is the attended block on the head's 256 columns. -/
theorem piece_at (o : ℕ) (h : Fin 4) (ho : o = h.val * 256) (hs : S256x1024.Slices ![0, o] S256x256)
    (inb : ∀ a, (![0, o] : Fin 2 → ℕ) a + S256x256.size a ≤ S256x1024.size a)
    (Q K V : FVec Ideal S256x1024 .f32) (x : S256x256.Idx) :
    headPiece o hs Q K V x = attendedBlock Q K V ((Rect.unit (s := S256x1024) ![0, o] S256x256.size inb).emb x) := by
  obtain ⟨p, d, rfl⟩ : ∃ (p : Fin 256) (d : Fin 256), x = ix2 p d := ⟨x 0, x 1, eq_ix2 x⟩
  have e : (Rect.unit (s := S256x1024) ![0, o] S256x256.size inb).emb (ix2 p d) = ix2 p (Cert.RowSpec.col h d) :=
    funext fun a => Fin.ext (by
      match a with
      | ⟨0, _⟩ => show 0 + 1 * p.val = p.val; omega
      | ⟨1, _⟩ => show o + 1 * d.val = h.val * 256 + d.val; omega)
  rw [e, attendedBlock_ix2, headPiece_apply o h ho hs Q K V p d]

/-- So the scratch block, read back after the four stores, is the attended block. -/
theorem scratch_eq (Q K V : FVec Ideal S256x1024 .f32) (y : S256x1024.Idx) :
    View.canon (headPieces Q K V) y = attendedBlock Q K V y := by
  refine View.canon_apply_of_pieces (attendedBlock Q K V) _ ?_ y
    (View.cover_of_tiledL (headPieces Q K V) S256x256.size (by sl_kernel_rfl) y)
  intro p hp x
  simp only [headPieces, List.mem_cons, List.mem_singleton, List.not_mem_nil, or_false] at hp
  rcases hp with rfl | rfl | rfl | rfl
  · exact piece_at 768 3 rfl slices_S256x1024_o0_768_S256x256 inb_S256x1024_S256x256_0_768 Q K V x
  · exact piece_at 512 2 rfl slices_S256x1024_o0_512_S256x256 inb_S256x1024_S256x256_0_512 Q K V x
  · exact piece_at 256 1 rfl slices_S256x1024_o0_256_S256x256 inb_S256x1024_S256x256_0_256 Q K V x
  · exact piece_at 0 0 rfl slices_S256x1024_o0_0_S256x256 inb_S256x1024_S256x256_0_0 Q K V x

/-- The zero offsets of a whole-block load. -/
theorem offsets_zero : (![0, 0] : Fin 2 → ℕ) = fun _ => 0 := funext fun a => by fin_cases a <;> rfl

/-- The load of the whole scratch block after the four stores reads the attended block. -/
theorem scratch_read {sig : RefSig} {κ : Kind} {sp : Space} (v : View sig κ sp S256x1024 .f32)
    (Q K V : FVec Ideal S256x1024 .f32) :
    v.readCov (headPieces Q K V) (Rect.unit ![0, 0] S256x1024.size inb_S256x1024_S256x1024_0_0).toLoadRect
      = attendedBlock Q K V := by
  rw [View.readCov_eq_canon_ld _ _ _ (View.cover_of_tiledL (headPieces Q K V) S256x256.size (by sl_kernel_rfl)),
    View.ld_unit_zero offsets_zero]
  exact funext (scratch_eq Q K V)

/-- The output projection at (p, j). -/
theorem out_proj_apply (S : Vec Ideal S256x1024 .f32) (v163 : Vec Ideal S1024x1024 .bf16) (v166 : Vec Ideal S1024 .f32)
    (p : Fin 256) (j : Fin 1024) :
    k0_pay18 (F := Ideal) S v163 v166 (ix2 p j)
      = Cert.RowSpec.linear (fun j k => v163 (ix2 k j)) (fun j => v166 (ix1 j)) (fun k => S (ix2 p k)) j := by
  unfold k0_pay18
  simp only [addf_apply, truncf_apply, shapeCast_self, Cert.KernelIdeal.RowMatmul.matmul_square,
    broadcastTo_1b_ab_apply, shapeCast_a_1a_apply]
  rfl

/-- The hidden layer, its maximum against zero and the last layer, at row p. -/
theorem mlp_apply (A : FVec Ideal S256x1024 .bf16) (v171 : Vec Ideal S1024x2048 .bf16) (v174 : Vec Ideal S2048 .f32)
    (v181 : Vec Ideal S2048x1 .bf16) (v184 : Vec Ideal S1 .f32) (p : Fin 256) (u : Fin 1) :
    k0_pay1 (F := Ideal) A v171 v174 v181 v184 (ix2 p u)
      = Cert.RowSpec.linear (fun j k => v181 (ix2 k j)) (fun j => v184 (ix1 j))
          (fun k => Cert.RowSpec.relu (Cert.RowSpec.linear (fun j k' => v171 (ix2 k' j)) (fun j => v174 (ix1 j))
            (fun k' => A (ix2 p k')) k)) u := by
  unfold k0_pay1
  simp only [addf_apply, maximumf_apply, truncf_apply, broadcast_apply, shapeCast_self,
    Cert.KernelIdeal.RowMatmul.matmul_column, Cert.KernelIdeal.RowMatmul.matmul_wide,
    broadcastTo_1b_ab_apply, shapeCast_a_1a_apply]
  rfl

end Cert.KernelIdeal.BlockTail

end
-- ==== Proof.BlockNorm.lean ====
import proofs.«105981_j67894843015729_1_alg».proof.Proof.Gen.KernelIdeal.Skeleton
import proofs.«105981_j67894843015729_1_alg».proof.Proof.Columns
import proofs.«105981_j67894843015729_1_alg».proof.Proof.RowReduce
import proofs.«105981_j67894843015729_1_alg».proof.Proof.RowMatmul
import proofs.«105981_j67894843015729_1_alg».proof.Proof.RowSpec
import Idealize.ShloMosaic.Lib.ValueLayout
import Idealize.ShloMosaic.Lib.ValueIdx
import Idealize.ShloMosaic.Lib.Pipeline.Value
import Idealize.ShloMosaic.PureOps.Ideal

/-! The kernel body's two layer normalisations and its three projections, read at one entry (p, j) of the block: each is
    the row-level specification applied to row p of the block. -/

noncomputable section

namespace Cert.KernelIdeal.BlockNorm

open Cert.KernelIdeal Cert.KernelIdeal.Gen Idealize.ShloMosaic Idealize.ShloMosaic.ValueIdx

/-- A reciprocal square root at an index is the extended reals' one of the element. -/
theorem rsqrt_apply {s : Shape} {φ : FTy} (a : FVec Ideal s φ) (i : s.Idx) : rsqrt a i = Ideal.rsqrt (a i) := rfl

/-- The column [256, 1] of the row sums of a block, at (p, u), is the sum of row p. -/
theorem sumColumn_apply (v : FVec Ideal S256x1024 .f32) (p : Fin 256) (u : Fin 1) :
    shapeCast S256x1 (multiReduction (F := Ideal) .add [1] S256 v 0x00000000#32 reduces_S256x1024_S256 (.inl rfl) rfl)
      shapeCasts_S256_S256x1 (ix2 p u) = ∑ k : Fin 1024, v (ix2 p k) :=
  (Cert.Columns.shapeCast_a_a1_apply _ shapeCasts_S256_S256x1 p u).trans
    (Cert.RowReduce.rowSum_apply v reduces_S256x1024_S256 rfl p)

/-- A vector [1024] repeated along the rows of a block, at (p, j), is the vector at j. -/
theorem rowVector_apply (w : FVec Ideal S1024 .f32) (p : Fin 256) (j : Fin 1024) :
    broadcastTo S256x1024 (shapeCast S1x1024 w shapeCasts_S1024_S1x1024) broadcasts_S1x1024_S256x1024 (ix2 p j)
      = w (ix1 j) :=
  (broadcastTo_1b_ab_apply _ broadcasts_S1x1024_S256x1024 p j).trans
    (shapeCast_a_1a_apply w shapeCasts_S1024_S1x1024 0 j)

/-- The candidate block centred and scaled, at (p, j), is the normalisation of row p at j. -/
theorem normed_apply (v1 : Vec Ideal S256x1024 .f32) (p : Fin 256) (j : Fin 1024) :
    k0_pay3 (F := Ideal) v1 (ix2 p j) = Cert.RowSpec.normed (fun k => v1 (ix2 p k)) j := by
  unfold k0_pay3
  simp only [mulf_apply, subf_apply, addf_apply, divf_apply, rsqrt_apply, broadcast_apply,
    Cert.Columns.broadcastTo_a1_ab_apply]
  rw [sumColumn_apply _ p 0, sumColumn_apply _ p 0]
  simp only [mulf_apply, subf_apply, divf_apply, broadcast_apply, Cert.Columns.broadcastTo_a1_ab_apply]
  rw [sumColumn_apply _ p 0]
  simp only [Cert.RowSpec.normed, Cert.RowSpec.centered, Cert.RowSpec.variance, Cert.RowSpec.mean, Cert.RowSpec.count,
    Cert.RowSpec.eps, Ideal.ofBits_def]

/-- The context block's layer normalisation, at (p, j), is the layer normalisation of row p at j. -/
theorem layerNorm_apply (v0 : Vec Ideal S256x1024 .f32) (v18 v22 : Vec Ideal S1024 .f32) (p : Fin 256) (j : Fin 1024) :
    k0_pay2 (F := Ideal) v0 v18 v22 (ix2 p j)
      = Cert.RowSpec.layerNorm (fun k => v0 (ix2 p k)) (fun k => v18 (ix1 k)) (fun k => v22 (ix1 k)) j := by
  unfold k0_pay2
  simp only [mulf_apply, subf_apply, addf_apply, divf_apply, rsqrt_apply, broadcast_apply,
    Cert.Columns.broadcastTo_a1_ab_apply]
  rw [rowVector_apply v18 p j, rowVector_apply v22 p j, sumColumn_apply _ p 0, sumColumn_apply _ p 0]
  simp only [mulf_apply, subf_apply, divf_apply, broadcast_apply, Cert.Columns.broadcastTo_a1_ab_apply]
  rw [sumColumn_apply _ p 0]
  simp only [Cert.RowSpec.layerNorm, Cert.RowSpec.normed, Cert.RowSpec.centered, Cert.RowSpec.variance,
    Cert.RowSpec.mean, Cert.RowSpec.count, Cert.RowSpec.eps, Ideal.ofBits_def]

/-- The normalised candidate block times the weight plus the bias, at (p, k). -/
theorem affine_apply (v41 : FVec Ideal S256x1024 .f32) (v42 v46 : Vec Ideal S1024 .f32) (p : Fin 256) (k : Fin 1024) :
    k0_pay4 (F := Ideal) v41 v42 v46 (ix2 p k) = v41 (ix2 p k) * v42 (ix1 k) + v46 (ix1 k) := by
  unfold k0_pay4
  simp only [truncf_apply, mulf_apply, addf_apply]
  rw [rowVector_apply v42 p k, rowVector_apply v46 p k]

/-- The query projection, at (p, j), is the linear layer applied to row p of its input block. -/
theorem proj_q_apply (v25 : FVec Ideal S256x1024 .f32) (v52 : Vec Ideal S1024x1024 .bf16) (v55 : Vec Ideal S1024 .f32) (p : Fin 256) (j : Fin 1024) :
    k0_pay5 (F := Ideal) v25 v52 v55 (ix2 p j)
      = Cert.RowSpec.linear (fun j k => v52 (ix2 k j)) (fun j => v55 (ix1 j)) (fun k => v25 (ix2 p k)) j := by
  unfold k0_pay5
  simp only [addf_apply]
  rw [rowVector_apply v55 p j, RowMatmul.matmul_square _ _ p j, shapeCast_self]
  simp only [truncf_apply, Cert.RowSpec.linear]

/-- The key projection, at (p, j), is the linear layer applied to row p of the normalised candidate block times the
    weight plus the bias. -/
theorem proj_k_apply (v41 : FVec Ideal S256x1024 .f32) (v42 v46 : Vec Ideal S1024 .f32) (v59 : Vec Ideal S1024x1024 .bf16) (v62 : Vec Ideal S1024 .f32) (p : Fin 256) (j : Fin 1024) :
    k0_pay6 (F := Ideal) v41 v42 v46 v59 v62 (ix2 p j)
      = Cert.RowSpec.linear (fun j k => v59 (ix2 k j)) (fun j => v62 (ix1 j)) (fun k => v41 (ix2 p k) * v42 (ix1 k) + v46 (ix1 k)) j := by
  unfold k0_pay6
  simp only [addf_apply]
  rw [rowVector_apply v62 p j, RowMatmul.matmul_square _ _ p j, shapeCast_self]
  simp only [affine_apply, Cert.RowSpec.linear]

/-- The value projection, at (p, j), is the linear layer applied to row p of the normalised candidate block times the
    weight plus the bias. -/
theorem proj_v_apply (v41 : FVec Ideal S256x1024 .f32) (v42 v46 : Vec Ideal S1024 .f32) (v66 : Vec Ideal S1024x1024 .bf16) (v69 : Vec Ideal S1024 .f32) (p : Fin 256) (j : Fin 1024) :
    k0_pay7 (F := Ideal) v41 v42 v46 v66 v69 (ix2 p j)
      = Cert.RowSpec.linear (fun j k => v66 (ix2 k j)) (fun j => v69 (ix1 j)) (fun k => v41 (ix2 p k) * v42 (ix1 k) + v46 (ix1 k)) j := by
  unfold k0_pay7
  simp only [addf_apply]
  rw [rowVector_apply v69 p j, RowMatmul.matmul_square _ _ p j, shapeCast_self]
  simp only [affine_apply, Cert.RowSpec.linear]

end Cert.KernelIdeal.BlockNorm

end
-- ==== Proof.BlockValue.lean ====
import proofs.«105981_j67894843015729_1_alg».proof.Proof.Gen.KernelIdeal.Value
import proofs.«105981_j67894843015729_1_alg».proof.Proof.BlockTail
import proofs.«105981_j67894843015729_1_alg».proof.Proof.BlockNorm
import Idealize.ShloMosaic.Lib.StableHlo.Run

/-! The idealized kernel's result array. At every grid point the body leaves, in the output's [256, 1] block, the score
    of each of the block's 256 rows (the row specification applied to that row of the two feature blocks and to the
    weight blocks); the point's feature blocks are rows 256 t .. 256 t + 255 of the feature arrays, its weight blocks the
    whole transposed weight matrices the host prepared, and its output block rows 256 t .. 256 t + 255 of the result:
    so the result array is the row specification of the argument arrays, row by row. -/

set_option maxRecDepth 16384

noncomputable section

namespace Cert.KernelIdeal.BlockValue

open Cert.KernelIdeal Cert.KernelIdeal.Gen Idealize.ShloMosaic Idealize.ShloMosaic.TcCoe Idealize.ShloMosaic.Tactic
open Idealize.SL.Sem Idealize.ShloMosaic.ValueIdx
open Cert.KernelIdeal.BlockHeads Cert.KernelIdeal.BlockTail Cert.KernelIdeal.BlockNorm

theorem offsets_zero1 : (![0] : Fin 1 → ℕ) = fun _ => 0 := funext fun a => by fin_cases a; rfl

/-- What the body leaves in the output block, from the eighteen loaded blocks: the MLP of the output projection of the
    attended block of the three projections. -/
theorem found (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1024 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024 .f32) (harg10 : arg10.IsWhole) (arg11 : Memref sig .tc .vmem S1024 .f32) (harg11 : arg11.IsWhole) (arg12 : Memref sig .tc .vmem S1024 .f32) (harg12 : arg12.IsWhole) (arg13 : Memref sig .tc .vmem S1024x1024 .bf16) (harg13 : arg13.IsWhole) (arg14 : Memref sig .tc .vmem S1024 .f32) (harg14 : arg14.IsWhole) (arg15 : Memref sig .tc .vmem S1024x2048 .bf16) (harg15 : arg15.IsWhole) (arg16 : Memref sig .tc .vmem S2048 .f32) (harg16 : arg16.IsWhole) (arg17 : Memref sig .tc .vmem S2048x1 .bf16) (harg17 : arg17.IsWhole) (arg18 : Memref sig .tc .vmem S1 .f32) (harg18 : arg18.IsWhole) (arg19 : Memref sig .tc .vmem S256x1 .f32) (harg19 : arg19.IsWhole) (arg20 : Memref sig .tc .vmem S256x1024 .f32) (harg20 : arg20.IsWhole)
    (x0 : Vec Ideal S256x1024 .f32) (x1 : Vec Ideal S256x1024 .f32) (x2 : Vec Ideal S1024 .f32) (x3 : Vec Ideal S1024 .f32) (x4 : Vec Ideal S1024 .f32) (x5 : Vec Ideal S1024 .f32) (x6 : Vec Ideal S1024x1024 .bf16) (x7 : Vec Ideal S1024x1024 .bf16) (x8 : Vec Ideal S1024x1024 .bf16) (x9 : Vec Ideal S1024 .f32) (x10 : Vec Ideal S1024 .f32) (x11 : Vec Ideal S1024 .f32) (x12 : Vec Ideal S1024x1024 .bf16) (x13 : Vec Ideal S1024 .f32) (x14 : Vec Ideal S1024x2048 .bf16) (x15 : Vec Ideal S2048 .f32) (x16 : Vec Ideal S2048x1 .bf16) (x17 : Vec Ideal S1 .f32) :
    out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17
      = k0_pay1 (k0_pay18 (attendedBlock (k0_pay5 (k0_pay2 x0 x2 x3) x6 x9) (k0_pay6 (k0_pay3 x1) x4 x5 x7 x10) (k0_pay7 (k0_pay3 x1) x4 x5 x8 x11)) x12 x13) x14 x15 x16 x17 := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17)]
  unfold kernelRun0_A
  dsimp only
  sl_unfold_words
  rw [View.canon_unit_zero offsets_zero]
  simp only [View.readAt_eq_ld, Memref.IsWhole.read_unread, View.ld_unit_zero (S := S256x1024) offsets_zero,
    View.ld_unit_zero (S := S1024x1024) offsets_zero, View.ld_unit_zero (S := S1024x2048) offsets_zero,
    View.ld_unit_zero (S := S2048x1) offsets_zero, View.ld_unit_zero (S := S1024) offsets_zero1,
    View.ld_unit_zero (S := S2048) offsets_zero1, View.ld_unit_zero (S := S1) offsets_zero1]
  rw [piece0_eq, piece1_eq, piece2_eq, piece3_eq]
  exact congrArg (fun S => k0_pay1 (k0_pay18 S x12 x13) x14 x15 x16 x17) (scratch_read arg20.view _ _ _)

/-- That block at row p is the row specification of row p of the two feature blocks and of the weight blocks (a weight
    block holds the transposed matrix: its entry (k, j) weighs feature k in output j). -/
theorem block_apply (x0 : Vec Ideal S256x1024 .f32) (x1 : Vec Ideal S256x1024 .f32) (x2 : Vec Ideal S1024 .f32) (x3 : Vec Ideal S1024 .f32) (x4 : Vec Ideal S1024 .f32) (x5 : Vec Ideal S1024 .f32) (x6 : Vec Ideal S1024x1024 .bf16) (x7 : Vec Ideal S1024x1024 .bf16) (x8 : Vec Ideal S1024x1024 .bf16) (x9 : Vec Ideal S1024 .f32) (x10 : Vec Ideal S1024 .f32) (x11 : Vec Ideal S1024 .f32) (x12 : Vec Ideal S1024x1024 .bf16) (x13 : Vec Ideal S1024 .f32) (x14 : Vec Ideal S1024x2048 .bf16) (x15 : Vec Ideal S2048 .f32) (x16 : Vec Ideal S2048x1 .bf16) (x17 : Vec Ideal S1 .f32) (p : Fin 256) :
    k0_pay1 (k0_pay18 (attendedBlock (k0_pay5 (k0_pay2 x0 x2 x3) x6 x9) (k0_pay6 (k0_pay3 x1) x4 x5 x7 x10) (k0_pay7 (k0_pay3 x1) x4 x5 x8 x11)) x12 x13) x14 x15 x16 x17 (ix2 p (0 : Fin 1))
      = Cert.RowSpec.score (fun k => x0 (ix2 p k)) (fun k => x1 (ix2 p k))
        (fun k => x2 (ix1 k)) (fun k => x3 (ix1 k)) (fun k => x4 (ix1 k)) (fun k => x5 (ix1 k))
        (fun j k => x6 (ix2 k j)) (fun j k => x7 (ix2 k j)) (fun j k => x8 (ix2 k j))
        (fun k => x9 (ix1 k)) (fun k => x10 (ix1 k)) (fun k => x11 (ix1 k))
        (fun j k => x12 (ix2 k j)) (fun k => x13 (ix1 k)) (fun j k => x14 (ix2 k j)) (fun k => x15 (ix1 k))
        (fun j k => x16 (ix2 k j)) (fun k => x17 (ix1 k)) := by
  have hkv : (fun k => k0_pay3 x1 (ix2 p k) * x4 (ix1 k) + x5 (ix1 k))
      = Cert.RowSpec.layerNorm (fun k => x1 (ix2 p k)) (fun k => x4 (ix1 k)) (fun k => x5 (ix1 k)) :=
    funext fun k => by rw [normed_apply]; rfl
  have hQ : (fun k => k0_pay5 (k0_pay2 x0 x2 x3) x6 x9 (ix2 p k))
      = Cert.RowSpec.linear (fun j k => x6 (ix2 k j)) (fun k => x9 (ix1 k))
          (Cert.RowSpec.layerNorm (fun k => x0 (ix2 p k)) (fun k => x2 (ix1 k)) (fun k => x3 (ix1 k))) :=
    funext fun k => by
      rw [proj_q_apply]
      exact congrArg (fun v => Cert.RowSpec.linear (fun j k => x6 (ix2 k j)) (fun k => x9 (ix1 k)) v k)
        (funext fun k' => layerNorm_apply x0 x2 x3 p k')
  have hK : (fun k => k0_pay6 (k0_pay3 x1) x4 x5 x7 x10 (ix2 p k))
      = Cert.RowSpec.linear (fun j k => x7 (ix2 k j)) (fun k => x10 (ix1 k))
          (Cert.RowSpec.layerNorm (fun k => x1 (ix2 p k)) (fun k => x4 (ix1 k)) (fun k => x5 (ix1 k))) :=
    funext fun k => by rw [proj_k_apply, hkv]
  have hV : (fun k => k0_pay7 (k0_pay3 x1) x4 x5 x8 x11 (ix2 p k))
      = Cert.RowSpec.linear (fun j k => x8 (ix2 k j)) (fun k => x11 (ix1 k))
          (Cert.RowSpec.layerNorm (fun k => x1 (ix2 p k)) (fun k => x4 (ix1 k)) (fun k => x5 (ix1 k))) :=
    funext fun k => by rw [proj_v_apply, hkv]
  have hA : (fun k' => k0_pay18 (attendedBlock (k0_pay5 (k0_pay2 x0 x2 x3) x6 x9) (k0_pay6 (k0_pay3 x1) x4 x5 x7 x10) (k0_pay7 (k0_pay3 x1) x4 x5 x8 x11)) x12 x13 (ix2 p k'))
      = Cert.RowSpec.linear (fun j k => x12 (ix2 k j)) (fun k => x13 (ix1 k))
          (Cert.RowSpec.attended (fun k => k0_pay5 (k0_pay2 x0 x2 x3) x6 x9 (ix2 p k))
            (fun k => k0_pay6 (k0_pay3 x1) x4 x5 x7 x10 (ix2 p k)) (fun k => k0_pay7 (k0_pay3 x1) x4 x5 x8 x11 (ix2 p k))) :=
    funext fun k' => by rw [out_proj_apply]; rfl
  rw [mlp_apply, hA, hQ, hK, hV]
  rfl

end Cert.KernelIdeal.BlockValue

end
-- ==== Proof.Windows.lean ====
import proofs.«105981_j67894843015729_1_alg».proof.Proof.Gen.KernelIdeal.Value
import proofs.«105981_j67894843015729_1_alg».proof.Proof.BlockValue
import Idealize.ShloMosaic.Lib.StableHlo.Run
import Idealize.ShloMosaic.Lib.ValueLayout

/-! The windows of the one pallas_call, read at a grid point t. The two feature windows hold rows 256 t .. 256 t + 255 of
    their arrays; every other input window holds its whole array at every point; six of those arrays the host wrote before
    the call, each the transpose of a weight matrix (cast to bf16, the identity on the extended reals): entry (k, j) of
    the window is entry (j, k) of the weight. -/

set_option maxRecDepth 16384

noncomputable section

namespace Cert.KernelIdeal.Windows

open Cert.KernelIdeal Cert.KernelIdeal.Gen Idealize.ShloMosaic Idealize.ShloMosaic.TcCoe Idealize.ShloMosaic.Tactic
open Idealize.SL.Sem Idealize.ShloMosaic.ValueIdx

variable (m : (ℓ : Loc nD τ sig) → Buf (Elt Ideal) ℓ)

/-- The printed index maps, decided over the 128 grid points: the feature windows and the output window are at block
    t, every other window at block 0. -/
theorem grid_facts : ∀ t : Fin cfg0.N,
    (win0_0.index t (0 : Fin 2) = t.val ∧ win0_0.index t (1 : Fin 2) = 0
      ∧ win0_1.index t (0 : Fin 2) = t.val ∧ win0_1.index t (1 : Fin 2) = 0
      ∧ win0_18.index t (0 : Fin 2) = t.val ∧ win0_18.index t (1 : Fin 2) = 0)
    ∧ (win0_2.index t (0 : Fin 1) = 0 ∧ win0_3.index t (0 : Fin 1) = 0 ∧ win0_4.index t (0 : Fin 1) = 0
      ∧ win0_5.index t (0 : Fin 1) = 0 ∧ win0_9.index t (0 : Fin 1) = 0 ∧ win0_10.index t (0 : Fin 1) = 0
      ∧ win0_11.index t (0 : Fin 1) = 0 ∧ win0_13.index t (0 : Fin 1) = 0 ∧ win0_15.index t (0 : Fin 1) = 0
      ∧ win0_17.index t (0 : Fin 1) = 0)
    ∧ (win0_6.index t (0 : Fin 2) = 0 ∧ win0_6.index t (1 : Fin 2) = 0
      ∧ win0_7.index t (0 : Fin 2) = 0 ∧ win0_7.index t (1 : Fin 2) = 0
      ∧ win0_8.index t (0 : Fin 2) = 0 ∧ win0_8.index t (1 : Fin 2) = 0
      ∧ win0_12.index t (0 : Fin 2) = 0 ∧ win0_12.index t (1 : Fin 2) = 0
      ∧ win0_14.index t (0 : Fin 2) = 0 ∧ win0_14.index t (1 : Fin 2) = 0
      ∧ win0_16.index t (0 : Fin 2) = 0 ∧ win0_16.index t (1 : Fin 2) = 0) :=
  (by decide +kernel : ∀ t : Fin grid0.N, _)

/-! ## The two feature windows -/

theorem feat0 (c : Dev nD) (t : Fin cfg0.N) (p : Fin 256) (k : Fin 1024) (r : Fin 32768) (hr : r.val = t.val * 256 + p.val) :
    iblk m c 0 t (ix2 p k) = m ((c : Thread nD τ).loc main_arg0) (ix2 r k) := by
  unfold iblk
  rw [View.read_apply]
  refine (congrFun (V_main_arg0 m c) _).trans ?_
  exact congrArg _ (funext fun a => Fin.ext (by
    match a with
    | ⟨0, _⟩ => show win0_0.index t (0 : Fin 2) * 256 + 1 * p.val = r.val; rw [(grid_facts t).1.1]; omega
    | ⟨1, _⟩ => show win0_0.index t (1 : Fin 2) * 1024 + 1 * k.val = k.val; rw [(grid_facts t).1.2.1]; omega))

theorem feat1 (c : Dev nD) (t : Fin cfg0.N) (p : Fin 256) (k : Fin 1024) (r : Fin 32768) (hr : r.val = t.val * 256 + p.val) :
    iblk m c 1 t (ix2 p k) = m ((c : Thread nD τ).loc main_arg1) (ix2 r k) := by
  unfold iblk
  rw [View.read_apply]
  refine (congrFun (V_main_arg1 m c) _).trans ?_
  exact congrArg _ (funext fun a => Fin.ext (by
    match a with
    | ⟨0, _⟩ => show win0_1.index t (0 : Fin 2) * 256 + 1 * p.val = r.val; rw [(grid_facts t).1.2.2.1]; omega
    | ⟨1, _⟩ => show win0_1.index t (1 : Fin 2) * 1024 + 1 * k.val = k.val; rw [(grid_facts t).1.2.2.2.1]; omega))

/-! ## The vector windows: LayerNorm weights and biases, projection biases -/

theorem vec2 (c : Dev nD) (t : Fin cfg0.N) (k : Fin 1024) :
    iblk m c 2 t (ix1 k) = m ((c : Thread nD τ).loc main_arg2) (ix1 k) := by
  unfold iblk
  rw [View.read_apply]
  refine (congrFun (V_main_arg2 m c) _).trans ?_
  exact congrArg _ (funext fun a => Fin.ext (by
    match a with
    | ⟨0, _⟩ => show win0_2.index t (0 : Fin 1) * 1024 + 1 * k.val = k.val; rw [(grid_facts t).2.1.1]; omega))

theorem vec3 (c : Dev nD) (t : Fin cfg0.N) (k : Fin 1024) :
    iblk m c 3 t (ix1 k) = m ((c : Thread nD τ).loc main_arg3) (ix1 k) := by
  unfold iblk
  rw [View.read_apply]
  refine (congrFun (V_main_arg3 m c) _).trans ?_
  exact congrArg _ (funext fun a => Fin.ext (by
    match a with
    | ⟨0, _⟩ => show win0_3.index t (0 : Fin 1) * 1024 + 1 * k.val = k.val; rw [(grid_facts t).2.1.2.1]; omega))

theorem vec4 (c : Dev nD) (t : Fin cfg0.N) (k : Fin 1024) :
    iblk m c 4 t (ix1 k) = m ((c : Thread nD τ).loc main_arg4) (ix1 k) := by
  unfold iblk
  rw [View.read_apply]
  refine (congrFun (V_main_arg4 m c) _).trans ?_
  exact congrArg _ (funext fun a => Fin.ext (by
    match a with
    | ⟨0, _⟩ => show win0_4.index t (0 : Fin 1) * 1024 + 1 * k.val = k.val; rw [(grid_facts t).2.1.2.2.1]; omega))

theorem vec5 (c : Dev nD) (t : Fin cfg0.N) (k : Fin 1024) :
    iblk m c 5 t (ix1 k) = m ((c : Thread nD τ).loc main_arg5) (ix1 k) := by
  unfold iblk
  rw [View.read_apply]
  refine (congrFun (V_main_arg5 m c) _).trans ?_
  exact congrArg _ (funext fun a => Fin.ext (by
    match a with
    | ⟨0, _⟩ => show win0_5.index t (0 : Fin 1) * 1024 + 1 * k.val = k.val; rw [(grid_facts t).2.1.2.2.2.1]; omega))

theorem vec9 (c : Dev nD) (t : Fin cfg0.N) (k : Fin 1024) :
    iblk m c 9 t (ix1 k) = m ((c : Thread nD τ).loc main_arg9) (ix1 k) := by
  unfold iblk
  rw [View.read_apply]
  refine (congrFun (V_main_arg9 m c) _).trans ?_
  exact congrArg _ (funext fun a => Fin.ext (by
    match a with
    | ⟨0, _⟩ => show win0_9.index t (0 : Fin 1) * 1024 + 1 * k.val = k.val; rw [(grid_facts t).2.1.2.2.2.2.1]; omega))

theorem vec10 (c : Dev nD) (t : Fin cfg0.N) (k : Fin 1024) :
    iblk m c 10 t (ix1 k) = m ((c : Thread nD τ).loc main_arg10) (ix1 k) := by
  unfold iblk
  rw [View.read_apply]
  refine (congrFun (V_main_arg10 m c) _).trans ?_
  exact congrArg _ (funext fun a => Fin.ext (by
    match a with
    | ⟨0, _⟩ => show win0_10.index t (0 : Fin 1) * 1024 + 1 * k.val = k.val; rw [(grid_facts t).2.1.2.2.2.2.2.1]; omega))

theorem vec11 (c : Dev nD) (t : Fin cfg0.N) (k : Fin 1024) :
    iblk m c 11 t (ix1 k) = m ((c : Thread nD τ).loc main_arg11) (ix1 k) := by
  unfold iblk
  rw [View.read_apply]
  refine (congrFun (V_main_arg11 m c) _).trans ?_
  exact congrArg _ (funext fun a => Fin.ext (by
    match a with
    | ⟨0, _⟩ => show win0_11.index t (0 : Fin 1) * 1024 + 1 * k.val = k.val; rw [(grid_facts t).2.1.2.2.2.2.2.2.1]; omega))

theorem vec13 (c : Dev nD) (t : Fin cfg0.N) (k : Fin 1024) :
    iblk m c 13 t (ix1 k) = m ((c : Thread nD τ).loc main_arg13) (ix1 k) := by
  unfold iblk
  rw [View.read_apply]
  refine (congrFun (V_main_arg13 m c) _).trans ?_
  exact congrArg _ (funext fun a => Fin.ext (by
    match a with
    | ⟨0, _⟩ => show win0_13.index t (0 : Fin 1) * 1024 + 1 * k.val = k.val; rw [(grid_facts t).2.1.2.2.2.2.2.2.2.1]; omega))

theorem vec15 (c : Dev nD) (t : Fin cfg0.N) (k : Fin 2048) :
    iblk m c 15 t (ix1 k) = m ((c : Thread nD τ).loc main_arg15) (ix1 k) := by
  unfold iblk
  rw [View.read_apply]
  refine (congrFun (V_main_arg15 m c) _).trans ?_
  exact congrArg _ (funext fun a => Fin.ext (by
    match a with
    | ⟨0, _⟩ => show win0_15.index t (0 : Fin 1) * 2048 + 1 * k.val = k.val; rw [(grid_facts t).2.1.2.2.2.2.2.2.2.2.1]; omega))

theorem vec17 (c : Dev nD) (t : Fin cfg0.N) (k : Fin 1) :
    iblk m c 17 t (ix1 k) = m ((c : Thread nD τ).loc main_arg17) (ix1 k) := by
  unfold iblk
  rw [View.read_apply]
  refine (congrFun (V_main_arg17 m c) _).trans ?_
  exact congrArg _ (funext fun a => Fin.ext (by
    match a with
    | ⟨0, _⟩ => show win0_17.index t (0 : Fin 1) * 1 + 1 * k.val = k.val; rw [(grid_facts t).2.1.2.2.2.2.2.2.2.2.2]; omega))

/-! ## The arrays the host wrote before the call -/

theorem host_wq (c : Dev nD) : @Eq (S1024x1024.Idx → EReal) (V m c main_v1)
    (truncf (F := Ideal) .bf16 (transpose S1024x1024 [1, 0] (m ((c : Thread nD τ).loc main_arg6)) transposes_S1024x1024_S1024x1024_1_0) bitsLt_bf16_f32) := by
  dsimp only [Gen.V, Gen.hostOps0]
  after_results

theorem host_wk (c : Dev nD) : @Eq (S1024x1024.Idx → EReal) (V m c main_v3)
    (truncf (F := Ideal) .bf16 (transpose S1024x1024 [1, 0] (m ((c : Thread nD τ).loc main_arg7)) transposes_S1024x1024_S1024x1024_1_0) bitsLt_bf16_f32) := by
  dsimp only [Gen.V, Gen.hostOps0]
  after_results

theorem host_wv (c : Dev nD) : @Eq (S1024x1024.Idx → EReal) (V m c main_v5)
    (truncf (F := Ideal) .bf16 (transpose S1024x1024 [1, 0] (m ((c : Thread nD τ).loc main_arg8)) transposes_S1024x1024_S1024x1024_1_0) bitsLt_bf16_f32) := by
  dsimp only [Gen.V, Gen.hostOps0]
  after_results

theorem host_wo (c : Dev nD) : @Eq (S1024x1024.Idx → EReal) (V m c main_v7)
    (truncf (F := Ideal) .bf16 (transpose S1024x1024 [1, 0] (m ((c : Thread nD τ).loc main_arg12)) transposes_S1024x1024_S1024x1024_1_0) bitsLt_bf16_f32) := by
  dsimp only [Gen.V, Gen.hostOps0]
  after_results

theorem host_w1 (c : Dev nD) : @Eq (S1024x2048.Idx → EReal) (V m c main_v9)
    (truncf (F := Ideal) .bf16 (transpose S1024x2048 [1, 0] (m ((c : Thread nD τ).loc main_arg14)) transposes_S2048x1024_S1024x2048_1_0) bitsLt_bf16_f32) := by
  dsimp only [Gen.V, Gen.hostOps0]
  after_results

theorem host_w2 (c : Dev nD) : @Eq (S2048x1.Idx → EReal) (V m c main_v11)
    (truncf (F := Ideal) .bf16 (transpose S2048x1 [1, 0] (m ((c : Thread nD τ).loc main_arg16)) transposes_S1x2048_S2048x1_1_0) bitsLt_bf16_f32) := by
  dsimp only [Gen.V, Gen.hostOps0]
  after_results

/-! ## The weight windows: entry (k, j) of the window is entry (j, k) of the weight -/

theorem mat6 (c : Dev nD) (t : Fin cfg0.N) (k j : Fin 1024) :
    iblk m c 6 t (ix2 k j) = m ((c : Thread nD τ).loc main_arg6) (ix2 j k) := by
  unfold iblk
  rw [View.read_apply]
  have e : ((cfg0.win 6).blk t).view.emb (ix2 k j) = ix2 k j := funext fun a => Fin.ext (by
    match a with
    | ⟨0, _⟩ => show win0_6.index t (0 : Fin 2) * 1024 + 1 * k.val = k.val; rw [(grid_facts t).2.2.1]; omega
    | ⟨1, _⟩ => show win0_6.index t (1 : Fin 2) * 1024 + 1 * j.val = j.val; rw [(grid_facts t).2.2.2.1]; omega)
  show V m c main_v1 (((cfg0.win 6).blk t).view.emb (ix2 k j)) = _
  rw [e]
  refine (congrFun (host_wq m c) _).trans ?_
  exact transpose_ix2_apply _ _ k j

theorem mat7 (c : Dev nD) (t : Fin cfg0.N) (k j : Fin 1024) :
    iblk m c 7 t (ix2 k j) = m ((c : Thread nD τ).loc main_arg7) (ix2 j k) := by
  unfold iblk
  rw [View.read_apply]
  have e : ((cfg0.win 7).blk t).view.emb (ix2 k j) = ix2 k j := funext fun a => Fin.ext (by
    match a with
    | ⟨0, _⟩ => show win0_7.index t (0 : Fin 2) * 1024 + 1 * k.val = k.val; rw [(grid_facts t).2.2.2.2.1]; omega
    | ⟨1, _⟩ => show win0_7.index t (1 : Fin 2) * 1024 + 1 * j.val = j.val; rw [(grid_facts t).2.2.2.2.2.1]; omega)
  show V m c main_v3 (((cfg0.win 7).blk t).view.emb (ix2 k j)) = _
  rw [e]
  refine (congrFun (host_wk m c) _).trans ?_
  exact transpose_ix2_apply _ _ k j

theorem mat8 (c : Dev nD) (t : Fin cfg0.N) (k j : Fin 1024) :
    iblk m c 8 t (ix2 k j) = m ((c : Thread nD τ).loc main_arg8) (ix2 j k) := by
  unfold iblk
  rw [View.read_apply]
  have e : ((cfg0.win 8).blk t).view.emb (ix2 k j) = ix2 k j := funext fun a => Fin.ext (by
    match a with
    | ⟨0, _⟩ => show win0_8.index t (0 : Fin 2) * 1024 + 1 * k.val = k.val; rw [(grid_facts t).2.2.2.2.2.2.1]; omega
    | ⟨1, _⟩ => show win0_8.index t (1 : Fin 2) * 1024 + 1 * j.val = j.val; rw [(grid_facts t).2.2.2.2.2.2.2.1]; omega)
  show V m c main_v5 (((cfg0.win 8).blk t).view.emb (ix2 k j)) = _
  rw [e]
  refine (congrFun (host_wv m c) _).trans ?_
  exact transpose_ix2_apply _ _ k j

theorem mat12 (c : Dev nD) (t : Fin cfg0.N) (k j : Fin 1024) :
    iblk m c 12 t (ix2 k j) = m ((c : Thread nD τ).loc main_arg12) (ix2 j k) := by
  unfold iblk
  rw [View.read_apply]
  have e : ((cfg0.win 12).blk t).view.emb (ix2 k j) = ix2 k j := funext fun a => Fin.ext (by
    match a with
    | ⟨0, _⟩ => show win0_12.index t (0 : Fin 2) * 1024 + 1 * k.val = k.val; rw [(grid_facts t).2.2.2.2.2.2.2.2.1]; omega
    | ⟨1, _⟩ => show win0_12.index t (1 : Fin 2) * 1024 + 1 * j.val = j.val; rw [(grid_facts t).2.2.2.2.2.2.2.2.2.1]; omega)
  show V m c main_v7 (((cfg0.win 12).blk t).view.emb (ix2 k j)) = _
  rw [e]
  refine (congrFun (host_wo m c) _).trans ?_
  exact transpose_ix2_apply _ _ k j

theorem mat14 (c : Dev nD) (t : Fin cfg0.N) (k : Fin 1024) (j : Fin 2048) :
    iblk m c 14 t (ix2 k j) = m ((c : Thread nD τ).loc main_arg14) (ix2 j k) := by
  unfold iblk
  rw [View.read_apply]
  have e : ((cfg0.win 14).blk t).view.emb (ix2 k j) = ix2 k j := funext fun a => Fin.ext (by
    match a with
    | ⟨0, _⟩ => show win0_14.index t (0 : Fin 2) * 1024 + 1 * k.val = k.val; rw [(grid_facts t).2.2.2.2.2.2.2.2.2.2.1]; omega
    | ⟨1, _⟩ => show win0_14.index t (1 : Fin 2) * 2048 + 1 * j.val = j.val; rw [(grid_facts t).2.2.2.2.2.2.2.2.2.2.2.1]; omega)
  show V m c main_v9 (((cfg0.win 14).blk t).view.emb (ix2 k j)) = _
  rw [e]
  refine (congrFun (host_w1 m c) _).trans ?_
  exact transpose_ix2_apply _ _ k j

theorem mat16 (c : Dev nD) (t : Fin cfg0.N) (k : Fin 2048) (j : Fin 1) :
    iblk m c 16 t (ix2 k j) = m ((c : Thread nD τ).loc main_arg16) (ix2 j k) := by
  unfold iblk
  rw [View.read_apply]
  have e : ((cfg0.win 16).blk t).view.emb (ix2 k j) = ix2 k j := funext fun a => Fin.ext (by
    match a with
    | ⟨0, _⟩ => show win0_16.index t (0 : Fin 2) * 2048 + 1 * k.val = k.val; rw [(grid_facts t).2.2.2.2.2.2.2.2.2.2.2.2.1]; omega
    | ⟨1, _⟩ => show win0_16.index t (1 : Fin 2) * 1 + 1 * j.val = j.val; rw [(grid_facts t).2.2.2.2.2.2.2.2.2.2.2.2.2]; omega)
  show V m c main_v11 (((cfg0.win 16).blk t).view.emb (ix2 k j)) = _
  rw [e]
  refine (congrFun (host_w2 m c) _).trans ?_
  exact transpose_ix2_apply _ _ k j

end Cert.KernelIdeal.Windows

end
-- ==== Proof.Result.lean ====
import proofs.«105981_j67894843015729_1_alg».proof.Proof.Gen.KernelIdeal.Value
import proofs.«105981_j67894843015729_1_alg».proof.Proof.BlockValue
import proofs.«105981_j67894843015729_1_alg».proof.Proof.Windows
import proofs.«105981_j67894843015729_1_alg».proof.Proof.RowSpec
import proofs.«105981_j67894843015729_1_alg».proof.Proof.Columns

/-! The idealized kernel's result array is the row specification of its argument arrays. Point t of the grid writes
    back rows 256 t .. 256 t + 255 of the result, each the score of the same row of the two feature arrays under the
    weights; the 128 points' blocks cover the 32768 rows. -/

set_option maxRecDepth 16384

noncomputable section

namespace Cert.KernelIdeal.Result

open Cert.KernelIdeal Cert.KernelIdeal.Gen Idealize.ShloMosaic Idealize.ShloMosaic.TcCoe Idealize.ShloMosaic.Tactic
open Idealize.SL.Sem Idealize.ShloMosaic.ValueIdx Idealize.ShloMosaic.Pipeline
open Cert.KernelIdeal.BlockValue Cert.KernelIdeal.Windows

variable (m : (ℓ : Loc nD τ sig) → Buf (Elt Ideal) ℓ) (ρ : Dev nD → PrngReg)

/-- The result array's contents: the row specification of the eighteen argument arrays. -/
abbrev result (c : Dev nD) : Buf (Elt Ideal) ((c : Thread nD τ).loc main_v12) :=
  Cert.RowSpec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

/-- Row p of point t's output block is row 256 t + p of the result array. -/
theorem out_row (t : Fin cfg0.N) (p : Fin 256) :
    ∃ r : Fin 32768, r.val = t.val * 256 + p.val
      ∧ ((cfg0.win 18).blk t).view.emb (ix2 p (0 : Fin 1)) = ix2 r (0 : Fin 1) := by
  have hN : cfg0.N = 128 := N_0
  have ht : t.val < cfg0.N := t.isLt
  have hp : p.val < 256 := p.isLt
  refine ⟨⟨t.val * 256 + p.val, by omega⟩, rfl, funext fun a => Fin.ext (by
    match a with
    | ⟨0, _⟩ => show win0_18.index t (0 : Fin 2) * 256 + 1 * p.val = t.val * 256 + p.val; rw [(grid_facts t).1.2.2.2.2.1]; omega
    | ⟨1, _⟩ => show win0_18.index t (1 : Fin 2) * 1 + 1 * 0 = 0; rw [(grid_facts t).1.2.2.2.2.2])⟩

/-- What point t writes back is its block of the result. -/
theorem flushed_eq (c : Dev nD) (t : Fin cfg0.N) :
    (dats m 0 c).flushed 18 t = ((cfg0.win 18).blk t).view.read (Elt Ideal) (result m c) := by
  rw [Cert.KernelIdeal.Value.flushed18_A m c t]
  rw [found c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)]
  funext j
  obtain ⟨p, rfl⟩ : ∃ p : Fin 256, j = ix2 p (0 : Fin 1) := ⟨j 0, Cert.Columns.eq_ix2_col j⟩
  obtain ⟨r, hr, he⟩ := out_row t p
  rw [View.read_apply, he]
  refine (block_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) p).trans ?_
  show _ = Cert.RowSpec.score (fun k => m ((c : Thread nD τ).loc main_arg0) (ix2 r k)) (fun k => m ((c : Thread nD τ).loc main_arg1) (ix2 r k))
    (fun k => m ((c : Thread nD τ).loc main_arg2) (ix1 k)) (fun k => m ((c : Thread nD τ).loc main_arg3) (ix1 k))
    (fun k => m ((c : Thread nD τ).loc main_arg4) (ix1 k)) (fun k => m ((c : Thread nD τ).loc main_arg5) (ix1 k))
    (fun j k => m ((c : Thread nD τ).loc main_arg6) (ix2 j k)) (fun j k => m ((c : Thread nD τ).loc main_arg7) (ix2 j k))
    (fun j k => m ((c : Thread nD τ).loc main_arg8) (ix2 j k))
    (fun k => m ((c : Thread nD τ).loc main_arg9) (ix1 k)) (fun k => m ((c : Thread nD τ).loc main_arg10) (ix1 k))
    (fun k => m ((c : Thread nD τ).loc main_arg11) (ix1 k))
    (fun j k => m ((c : Thread nD τ).loc main_arg12) (ix2 j k)) (fun k => m ((c : Thread nD τ).loc main_arg13) (ix1 k))
    (fun j k => m ((c : Thread nD τ).loc main_arg14) (ix2 j k)) (fun k => m ((c : Thread nD τ).loc main_arg15) (ix1 k))
    (fun j k => m ((c : Thread nD τ).loc main_arg16) (ix2 j k)) (fun k => m ((c : Thread nD τ).loc main_arg17) (ix1 k))
  rw [show (fun k => iblk m c 0 t (ix2 p k)) = (fun k => m ((c : Thread nD τ).loc main_arg0) (ix2 r k)) from funext fun k => feat0 m c t p k r hr,
    show (fun k => iblk m c 1 t (ix2 p k)) = (fun k => m ((c : Thread nD τ).loc main_arg1) (ix2 r k)) from funext fun k => feat1 m c t p k r hr,
    show (fun k => iblk m c 2 t (ix1 k)) = (fun k => m ((c : Thread nD τ).loc main_arg2) (ix1 k)) from funext fun k => vec2 m c t k,
    show (fun k => iblk m c 3 t (ix1 k)) = (fun k => m ((c : Thread nD τ).loc main_arg3) (ix1 k)) from funext fun k => vec3 m c t k,
    show (fun k => iblk m c 4 t (ix1 k)) = (fun k => m ((c : Thread nD τ).loc main_arg4) (ix1 k)) from funext fun k => vec4 m c t k,
    show (fun k => iblk m c 5 t (ix1 k)) = (fun k => m ((c : Thread nD τ).loc main_arg5) (ix1 k)) from funext fun k => vec5 m c t k,
    show (fun j k => iblk m c 6 t (ix2 k j)) = (fun j k => m ((c : Thread nD τ).loc main_arg6) (ix2 j k)) from funext fun j => funext fun k => mat6 m c t k j,
    show (fun j k => iblk m c 7 t (ix2 k j)) = (fun j k => m ((c : Thread nD τ).loc main_arg7) (ix2 j k)) from funext fun j => funext fun k => mat7 m c t k j,
    show (fun j k => iblk m c 8 t (ix2 k j)) = (fun j k => m ((c : Thread nD τ).loc main_arg8) (ix2 j k)) from funext fun j => funext fun k => mat8 m c t k j,
    show (fun k => iblk m c 9 t (ix1 k)) = (fun k => m ((c : Thread nD τ).loc main_arg9) (ix1 k)) from funext fun k => vec9 m c t k,
    show (fun k => iblk m c 10 t (ix1 k)) = (fun k => m ((c : Thread nD τ).loc main_arg10) (ix1 k)) from funext fun k => vec10 m c t k,
    show (fun k => iblk m c 11 t (ix1 k)) = (fun k => m ((c : Thread nD τ).loc main_arg11) (ix1 k)) from funext fun k => vec11 m c t k,
    show (fun j k => iblk m c 12 t (ix2 k j)) = (fun j k => m ((c : Thread nD τ).loc main_arg12) (ix2 j k)) from funext fun j => funext fun k => mat12 m c t k j,
    show (fun k => iblk m c 13 t (ix1 k)) = (fun k => m ((c : Thread nD τ).loc main_arg13) (ix1 k)) from funext fun k => vec13 m c t k,
    show (fun j k => iblk m c 14 t (ix2 k j)) = (fun j k => m ((c : Thread nD τ).loc main_arg14) (ix2 j k)) from funext fun j => funext fun k => mat14 m c t k j,
    show (fun k => iblk m c 15 t (ix1 k)) = (fun k => m ((c : Thread nD τ).loc main_arg15) (ix1 k)) from funext fun k => vec15 m c t k,
    show (fun j k => iblk m c 16 t (ix2 k j)) = (fun j k => m ((c : Thread nD τ).loc main_arg16) (ix2 j k)) from funext fun j => funext fun k => mat16 m c t k j,
    show (fun k => iblk m c 17 t (ix1 k)) = (fun k => m ((c : Thread nD τ).loc main_arg17) (ix1 k)) from funext fun k => vec17 m c t k]

/-- Every row of the result is in the block of the point that holds it: row i is in point i / 256's block. -/
theorem covered (i : S32768x1.Idx) :
    ∃ t : Fin cfg0.N, (cfg0.win 18).flush t = true ∧ i ∈ ((cfg0.win 18).blk t).view.set := by
  have hN : cfg0.N = 128 := N_0
  have hi0 : (i 0).val < 32768 := (i 0).isLt
  have hi1 : (i 1).val < 1 := (i 1).isLt
  have ht : (i 0).val / 256 < cfg0.N := by omega
  refine ⟨⟨(i 0).val / 256, ht⟩, flush0_18 _, ?_⟩
  show i ∈ ((View.whole main_v12).slice (win0_18.rect ⟨(i 0).val / 256, ht⟩)).set
  rw [View.set_slice_whole, Rect.mem_set_unit]
  intro a
  match a with
  | ⟨0, _⟩ =>
    show win0_18.index ⟨(i 0).val / 256, ht⟩ (0 : Fin 2) * 256 ≤ (i 0).val
      ∧ (i 0).val < win0_18.index ⟨(i 0).val / 256, ht⟩ (0 : Fin 2) * 256 + 256
    rw [(grid_facts ⟨(i 0).val / 256, ht⟩).1.2.2.2.2.1]
    show (i 0).val / 256 * 256 ≤ (i 0).val ∧ (i 0).val < (i 0).val / 256 * 256 + 256
    omega
  | ⟨1, _⟩ =>
    show win0_18.index ⟨(i 0).val / 256, ht⟩ (1 : Fin 2) * 1 ≤ (i 1).val
      ∧ (i 1).val < win0_18.index ⟨(i 0).val / 256, ht⟩ (1 : Fin 2) * 1 + 1
    rw [(grid_facts ⟨(i 0).val / 256, ht⟩).1.2.2.2.2.2]
    omega

/-- The result array after the run. -/
theorem final (c : Dev nD) : (dats m 0 c).arrAt 18 cfg0.N = result m c :=
  (dats m 0 c).arrAt_eq_of_cover 18 (result m c) (fun t _ => flushed_eq m c t) covered

/-- The run: every weakly fair execution terminates with the result array at the row specification of the arguments, and
    the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨(h c).1.trans (final m c), (h c).2⟩) (Cert.KernelIdeal.Value.run_blocks m ρ)

end Cert.KernelIdeal.Result

end
-- ==== Proof.RefScore.lean ====
import proofs.«105981_j67894843015729_1_alg».proof.Proof.Gen.ReferenceIdeal.Read
import proofs.«105981_j67894843015729_1_alg».proof.Proof.RowSpec
import proofs.«105981_j67894843015729_1_alg».proof.Proof.Columns
import Idealize.ShloMosaic.Lib.ValueIdx
import Idealize.ShloMosaic.PureOps.Ideal.Laws

/-! The reference program's result, read one row at a time: each stage of the reference, at literal coordinates,
    is the corresponding piece of the row specification (layer norm, the three projections, the one-key softmax
    per head, the output projection, and the two-layer score), so the whole result array is the specification's. -/

noncomputable section

namespace Cert.RefScore

open Cert.ReferenceIdeal Cert.ReferenceIdeal.Read Idealize.ShloMosaic Idealize.ShloMosaic.ValueIdx

/-- The feature arrays [32768, 1024]. -/
abbrev Feat := (⟨S32768x1024, .f32⟩ : BufTy).Contents (Elt Ideal)
/-- A vector of 1024 entries. -/
abbrev V1024 := (⟨S1024, .f32⟩ : BufTy).Contents (Elt Ideal)
/-- A square weight [1024, 1024]. -/
abbrev M1024 := (⟨S1024x1024, .f32⟩ : BufTy).Contents (Elt Ideal)

/-- Row r of a feature array. -/
abbrev row (x : Feat) (r : Fin 32768) : RowSpec.Row 1024 := fun k => x (ix2 r k)
/-- A rank-1 array as a row. -/
abbrev vec {n : ℕ} (w : (⟨1, ![n]⟩ : Shape).Idx → EReal) : RowSpec.Row n := fun k => w (ix1 k)
/-- A rank-2 array as a function of its two coordinates. -/
abbrev mat {m n : ℕ} (W : (⟨2, ![m, n]⟩ : Shape).Idx → EReal) : Fin m → Fin n → EReal := fun j k => W (ix2 j k)

/-! ## Layer norm of the context features -/

/-- The mean of row r. -/
theorem mean_q (x : Feat) (r : Fin 32768) :
    val_main_v3 (F := Ideal) x (ix2 r (0 : Fin 1)) = RowSpec.mean (row x r) := by
  rw [val_main_v3_apply, val_main_v1_apply, val_main_v0_apply, val_main_v2_apply, val_main_cst_0_apply, val_main_cst_apply]
  simp only [Ideal.hostDivf_def, Ideal.ofBits_def]
  rw [Ideal.ofBits_zero_f32, zero_add]
  unfold RowSpec.mean RowSpec.count
  refine congrArg (fun s => Ideal.div s _) (Finset.sum_congr rfl fun k _ => ?_)
  exact congrArg x (funext fun a => Fin.ext (by match a with | ⟨0, _⟩ => rfl | ⟨1, _⟩ => rfl))

/-- The row minus its mean (the copy the variance squares). -/
theorem cenA_q (x : Feat) (r : Fin 32768) (j : Fin 1024) :
    val_main_v5 (F := Ideal) x (ix2 r j) = RowSpec.centered (row x r) j := by
  rw [val_main_v5_apply, val_main_v4_apply, show idx_main_v4 (ix2 r j) = ix2 r (0 : Fin 1) from funext fun a => Fin.ext (by match a with | ⟨0, _⟩ => rfl | ⟨1, _⟩ => rfl), mean_q]
  rfl

/-- The row minus its mean (the copy that is normalized). -/
theorem cenB_q (x : Feat) (r : Fin 32768) (j : Fin 1024) :
    val_main_v12 (F := Ideal) x (ix2 r j) = RowSpec.centered (row x r) j := by
  rw [val_main_v12_apply, val_main_v11_apply, show idx_main_v11 (ix2 r j) = ix2 r (0 : Fin 1) from funext fun a => Fin.ext (by match a with | ⟨0, _⟩ => rfl | ⟨1, _⟩ => rfl), mean_q]
  rfl

/-- The variance of row r: the mean of the squares of the centered row. -/
theorem var_q (x : Feat) (r : Fin 32768) :
    val_main_v10 (F := Ideal) x (ix2 r (0 : Fin 1)) = RowSpec.variance (row x r) := by
  rw [val_main_v10_apply, val_main_v8_apply, val_main_v7_apply, val_main_v9_apply, val_main_cst_2_apply, val_main_cst_1_apply]
  simp only [Ideal.hostDivf_def, Ideal.ofBits_def]
  rw [Ideal.ofBits_zero_f32, zero_add]
  unfold RowSpec.variance RowSpec.mean RowSpec.count
  refine congrArg (fun s => Ideal.div s _) (Finset.sum_congr rfl fun k _ => ?_)
  rw [val_main_v6_apply, show idx_main_v7 (idx_main_v8 (ix2 r (0 : Fin 1))) k = ix2 r k from funext fun a => Fin.ext (by match a with | ⟨0, _⟩ => rfl | ⟨1, _⟩ => rfl), cenA_q]
  rfl

/-- One over the square root of the guarded variance. -/
theorem rs_q (x : Feat) (r : Fin 32768) :
    val_main_v15 (F := Ideal) x (ix2 r (0 : Fin 1)) = Ideal.rsqrt (RowSpec.variance (row x r) + RowSpec.eps) := by
  rw [val_main_v15_apply, val_main_v14_apply, val_main_v13_apply, val_main_cst_3_apply, var_q]
  rfl

/-- The layer norm of row r, entry j. -/
theorem ln_q (x : Feat) (w b : V1024) (r : Fin 32768) (j : Fin 1024) :
    val_main_v23 (F := Ideal) x w b (ix2 r j) = RowSpec.layerNorm (row x r) (vec w) (vec b) j := by
  rw [val_main_v23_apply, val_main_v20_apply, val_main_v17_apply, val_main_v16_apply, val_main_v19_apply, val_main_v18_apply,
    val_main_v22_apply, val_main_v21_apply,
    show idx_main_v16 (ix2 r j) = ix2 r (0 : Fin 1) from funext fun a => Fin.ext (by match a with | ⟨0, _⟩ => rfl | ⟨1, _⟩ => rfl),
    show idx_main_v18 (idx_main_v19 (ix2 r j)) = ix1 j from funext fun a => Fin.ext (by match a with | ⟨0, _⟩ => rfl),
    show idx_main_v21 (idx_main_v22 (ix2 r j)) = ix1 j from funext fun a => Fin.ext (by match a with | ⟨0, _⟩ => rfl),
    cenB_q, rs_q]
  rfl

/-! ## Layer norm of the candidate features -/

/-- The mean of row r. -/
theorem mean_kv (x : Feat) (r : Fin 32768) :
    val_main_v27 (F := Ideal) x (ix2 r (0 : Fin 1)) = RowSpec.mean (row x r) := by
  rw [val_main_v27_apply, val_main_v25_apply, val_main_v24_apply, val_main_v26_apply, val_main_cst_5_apply, val_main_cst_4_apply]
  simp only [Ideal.hostDivf_def, Ideal.ofBits_def]
  rw [Ideal.ofBits_zero_f32, zero_add]
  unfold RowSpec.mean RowSpec.count
  refine congrArg (fun s => Ideal.div s _) (Finset.sum_congr rfl fun k _ => ?_)
  exact congrArg x (funext fun a => Fin.ext (by match a with | ⟨0, _⟩ => rfl | ⟨1, _⟩ => rfl))

/-- The row minus its mean (the copy the variance squares). -/
theorem cenA_kv (x : Feat) (r : Fin 32768) (j : Fin 1024) :
    val_main_v29 (F := Ideal) x (ix2 r j) = RowSpec.centered (row x r) j := by
  rw [val_main_v29_apply, val_main_v28_apply, show idx_main_v28 (ix2 r j) = ix2 r (0 : Fin 1) from funext fun a => Fin.ext (by match a with | ⟨0, _⟩ => rfl | ⟨1, _⟩ => rfl), mean_kv]
  rfl

/-- The row minus its mean (the copy that is normalized). -/
theorem cenB_kv (x : Feat) (r : Fin 32768) (j : Fin 1024) :
    val_main_v36 (F := Ideal) x (ix2 r j) = RowSpec.centered (row x r) j := by
  rw [val_main_v36_apply, val_main_v35_apply, show idx_main_v35 (ix2 r j) = ix2 r (0 : Fin 1) from funext fun a => Fin.ext (by match a with | ⟨0, _⟩ => rfl | ⟨1, _⟩ => rfl), mean_kv]
  rfl

/-- The variance of row r: the mean of the squares of the centered row. -/
theorem var_kv (x : Feat) (r : Fin 32768) :
    val_main_v34 (F := Ideal) x (ix2 r (0 : Fin 1)) = RowSpec.variance (row x r) := by
  rw [val_main_v34_apply, val_main_v32_apply, val_main_v31_apply, val_main_v33_apply, val_main_cst_7_apply, val_main_cst_6_apply]
  simp only [Ideal.hostDivf_def, Ideal.ofBits_def]
  rw [Ideal.ofBits_zero_f32, zero_add]
  unfold RowSpec.variance RowSpec.mean RowSpec.count
  refine congrArg (fun s => Ideal.div s _) (Finset.sum_congr rfl fun k _ => ?_)
  rw [val_main_v30_apply, show idx_main_v31 (idx_main_v32 (ix2 r (0 : Fin 1))) k = ix2 r k from funext fun a => Fin.ext (by match a with | ⟨0, _⟩ => rfl | ⟨1, _⟩ => rfl), cenA_kv]
  rfl

/-- One over the square root of the guarded variance. -/
theorem rs_kv (x : Feat) (r : Fin 32768) :
    val_main_v39 (F := Ideal) x (ix2 r (0 : Fin 1)) = Ideal.rsqrt (RowSpec.variance (row x r) + RowSpec.eps) := by
  rw [val_main_v39_apply, val_main_v38_apply, val_main_v37_apply, val_main_cst_8_apply, var_kv]
  rfl

/-- The layer norm of row r, entry j. -/
theorem ln_kv (x : Feat) (w b : V1024) (r : Fin 32768) (j : Fin 1024) :
    val_main_v47 (F := Ideal) x w b (ix2 r j) = RowSpec.layerNorm (row x r) (vec w) (vec b) j := by
  rw [val_main_v47_apply, val_main_v44_apply, val_main_v41_apply, val_main_v40_apply, val_main_v43_apply, val_main_v42_apply,
    val_main_v46_apply, val_main_v45_apply,
    show idx_main_v40 (ix2 r j) = ix2 r (0 : Fin 1) from funext fun a => Fin.ext (by match a with | ⟨0, _⟩ => rfl | ⟨1, _⟩ => rfl),
    show idx_main_v42 (idx_main_v43 (ix2 r j)) = ix1 j from funext fun a => Fin.ext (by match a with | ⟨0, _⟩ => rfl),
    show idx_main_v45 (idx_main_v46 (ix2 r j)) = ix1 j from funext fun a => Fin.ext (by match a with | ⟨0, _⟩ => rfl),
    cenB_kv, rs_kv]
  rfl

/-! ## The three projections -/

/-- A projection of the layer norm of row r: the weight W [out, in] and bias c applied to LayerNorm(x; w, b). -/
abbrev proj (x : Feat) (w b : V1024) (W : M1024) (c : V1024) (r : Fin 32768) : RowSpec.Row 1024 :=
  RowSpec.linear (mat W) (vec c) (RowSpec.layerNorm (row x r) (vec w) (vec b))

/-- The query row. -/
theorem q_eq (x0 : Feat) (x2 x3 : V1024) (x6 : M1024) (x9 : V1024) (r : Fin 32768) (j : Fin 1024) :
    val_main_v52 (F := Ideal) x0 x2 x3 x6 x9 (ix2 r j)
      = proj x0 x2 x3 x6 x9 r j := by
  rw [val_main_v52_apply, val_main_v49_apply, val_main_v51_apply, val_main_v50_apply,
    show idx_main_v50 (idx_main_v51 (ix2 r j)) = ix1 j from funext fun a => Fin.ext (by match a with | ⟨0, _⟩ => rfl)]
  simp only [Ideal.addf_def]
  unfold proj RowSpec.linear
  refine congrArg (fun s => s + x9 (ix1 j)) (Finset.sum_congr rfl fun k _ => ?_)
  rw [val_main_v48_apply, show lidx_main_v49 (ix2 r j) k = ix2 r k from funext fun a => Fin.ext (by match a with | ⟨0, _⟩ => rfl | ⟨1, _⟩ => rfl),
    show idx_main_v48 (ridx_main_v49 (ix2 r j) k) = ix2 j k from funext fun a => Fin.ext (by match a with | ⟨0, _⟩ => rfl | ⟨1, _⟩ => rfl), ln_q]

/-- The key row. -/
theorem k_eq (x1 : Feat) (x4 x5 : V1024) (x7 : M1024) (x10 : V1024) (r : Fin 32768) (j : Fin 1024) :
    val_main_v58 (F := Ideal) x1 x4 x5 x7 x10 (ix2 r j)
      = proj x1 x4 x5 x7 x10 r j := by
  rw [val_main_v58_apply, val_main_v55_apply, val_main_v57_apply, val_main_v56_apply,
    show idx_main_v56 (idx_main_v57 (ix2 r j)) = ix1 j from funext fun a => Fin.ext (by match a with | ⟨0, _⟩ => rfl)]
  simp only [Ideal.addf_def]
  unfold proj RowSpec.linear
  refine congrArg (fun s => s + x10 (ix1 j)) (Finset.sum_congr rfl fun k _ => ?_)
  rw [val_main_v54_apply, show lidx_main_v55 (ix2 r j) k = ix2 r k from funext fun a => Fin.ext (by match a with | ⟨0, _⟩ => rfl | ⟨1, _⟩ => rfl),
    show idx_main_v54 (ridx_main_v55 (ix2 r j) k) = ix2 j k from funext fun a => Fin.ext (by match a with | ⟨0, _⟩ => rfl | ⟨1, _⟩ => rfl), ln_kv]

/-- The value row. -/
theorem v_eq (x1 : Feat) (x4 x5 : V1024) (x8 : M1024) (x11 : V1024) (r : Fin 32768) (j : Fin 1024) :
    val_main_v64 (F := Ideal) x1 x4 x5 x8 x11 (ix2 r j)
      = proj x1 x4 x5 x8 x11 r j := by
  rw [val_main_v64_apply, val_main_v61_apply, val_main_v63_apply, val_main_v62_apply,
    show idx_main_v62 (idx_main_v63 (ix2 r j)) = ix1 j from funext fun a => Fin.ext (by match a with | ⟨0, _⟩ => rfl)]
  simp only [Ideal.addf_def]
  unfold proj RowSpec.linear
  refine congrArg (fun s => s + x11 (ix1 j)) (Finset.sum_congr rfl fun k _ => ?_)
  rw [val_main_v60_apply, show lidx_main_v61 (ix2 r j) k = ix2 r k from funext fun a => Fin.ext (by match a with | ⟨0, _⟩ => rfl | ⟨1, _⟩ => rfl),
    show idx_main_v60 (ridx_main_v61 (ix2 r j) k) = ix2 j k from funext fun a => Fin.ext (by match a with | ⟨0, _⟩ => rfl | ⟨1, _⟩ => rfl), ln_kv]

/-! ## The heads: entry d of head h of a row of 1024 is entry h * 256 + d -/

theorem idx53_col (r : Fin 32768) (h : Fin 4) (d : Fin 256) :
    idx_main_v53 (ix3 r h d) = ix2 r (RowSpec.col h d) :=
  funext fun a => Fin.ext (by
    have hh : h.val < 4 := h.isLt
    have hd : d.val < 256 := d.isLt
    match a with
    | ⟨0, _⟩ => show ((r.val * 4 + h.val) * 256 + d.val) / 1024 = r.val; omega
    | ⟨1, _⟩ => show ((r.val * 4 + h.val) * 256 + d.val) % 1024 = h.val * 256 + d.val; omega)

theorem idx59_col (r : Fin 32768) (h : Fin 4) (d : Fin 256) :
    idx_main_v59 (ix3 r h d) = ix2 r (RowSpec.col h d) :=
  funext fun a => Fin.ext (by
    have hh : h.val < 4 := h.isLt
    have hd : d.val < 256 := d.isLt
    match a with
    | ⟨0, _⟩ => show ((r.val * 4 + h.val) * 256 + d.val) / 1024 = r.val; omega
    | ⟨1, _⟩ => show ((r.val * 4 + h.val) * 256 + d.val) % 1024 = h.val * 256 + d.val; omega)

theorem idx65_col (r : Fin 32768) (h : Fin 4) (d : Fin 256) :
    idx_main_v65 (ix3 r h d) = ix2 r (RowSpec.col h d) :=
  funext fun a => Fin.ext (by
    have hh : h.val < 4 := h.isLt
    have hd : d.val < 256 := d.isLt
    match a with
    | ⟨0, _⟩ => show ((r.val * 4 + h.val) * 256 + d.val) / 1024 = r.val; omega
    | ⟨1, _⟩ => show ((r.val * 4 + h.val) * 256 + d.val) % 1024 = h.val * 256 + d.val; omega)

/-- The feature j of a row is entry j % 256 of head j / 256. -/
theorem idx82_head (r : Fin 32768) (j : Fin 1024) :
    idx_main_v82 (ix2 r j) = ix3 r (RowSpec.headOf j) (⟨j.val % 256, Nat.mod_lt _ (by decide)⟩ : Fin 256) :=
  funext fun a => Fin.ext (by
    have hj : j.val < 1024 := j.isLt
    match a with
    | ⟨0, _⟩ => show (r.val * 1024 + j.val) / 1024 = r.val; omega
    | ⟨1, _⟩ => show (r.val * 1024 + j.val) / 256 % 4 = j.val / 256; omega
    | ⟨2, _⟩ => show (r.val * 1024 + j.val) % 256 = j.val % 256; omega)

theorem col_head (j : Fin 1024) :
    RowSpec.col (RowSpec.headOf j) (⟨j.val % 256, Nat.mod_lt _ (by decide)⟩ : Fin 256) = j :=
  Fin.ext (by show j.val / 256 * 256 + j.val % 256 = j.val; omega)

/-! ## The score of a head and the softmax over its one key -/

/-- The scaled dot product of the query and key over head h. -/
theorem score_eq (x0 x1 : Feat) (x2 x3 x4 x5 : V1024) (x6 x7 : M1024) (x9 x10 : V1024) (r : Fin 32768) (h : Fin 4) :
    val_main_v70 (F := Ideal) x0 x1 x2 x3 x4 x5 x6 x7 x9 x10 (ix3 r h (0 : Fin 1)) = RowSpec.headScore (proj x0 x2 x3 x6 x9 r) (proj x1 x4 x5 x7 x10 r) h := by
  rw [val_main_v70_apply, val_main_v68_apply, val_main_v67_apply, val_main_v69_apply, val_main_cst_10_apply,
    val_main_cst_9_apply]
  simp only [Ideal.mulf_def, Ideal.ofBits_def]
  rw [Ideal.ofBits_zero_f32, zero_add]
  unfold RowSpec.headScore RowSpec.scale
  refine congrArg (fun s => s * _) (Finset.sum_congr rfl fun d _ => ?_)
  rw [val_main_v66_apply, val_main_v53_apply, val_main_v59_apply,
    show idx_main_v67 (idx_main_v68 (ix3 r h (0 : Fin 1))) d = ix3 r h d from funext fun a => Fin.ext (by match a with | ⟨0, _⟩ => rfl | ⟨1, _⟩ => rfl | ⟨2, _⟩ => rfl),
    idx53_col, idx59_col, q_eq, k_eq]
  rfl

/-- The maximum over the one key of a head, from minus infinity, is that key's entry. -/
theorem reduceMax_key (x : (⟨S32768x4x1, .f32⟩ : BufTy).Contents (Elt Ideal)) (r : Fin 32768) (h : Fin 4) :
    Host.reduce (FloatOps.maximumf (F := Ideal) (φ := .f32)) x (val_main_cst_11 (F := Ideal))
        Facts₀.reducesTo_S32768x4x1_S32768x4_d2 Facts₀.h_S_ (ix2 r h)
      = x (ix3 r h (0 : Fin 1)) := by
  rw [Host.reduce_eq_fold_single (FloatOps.maximumf (F := Ideal) (φ := .f32)) x _
    Facts₀.reducesTo_S32768x4x1_S32768x4_d2 (by decide) Facts₀.h_S_]
  refine (RowSpec.foldMax_one _).trans ?_
  exact congrArg x (funext fun c => Fin.ext (by match c with | ⟨0, _⟩ => rfl | ⟨1, _⟩ => rfl | ⟨2, _⟩ => rfl))

/-- The head's maximum (taken with minus infinity once more) is its score. -/
theorem max_eq (x0 x1 : Feat) (x2 x3 x4 x5 : V1024) (x6 x7 : M1024) (x9 x10 : V1024) (r : Fin 32768) (h : Fin 4) :
    val_main_v73 (F := Ideal) x0 x1 x2 x3 x4 x5 x6 x7 x9 x10 (ix2 r h) = RowSpec.headScore (proj x0 x2 x3 x6 x9 r) (proj x1 x4 x5 x7 x10 r) h := by
  rw [val_main_v73_apply, val_main_v72_apply, val_main_cst_12_apply]
  unfold val_main_v71
  rw [reduceMax_key, score_eq]
  exact RowSpec.max_negInf_left _

/-- The exponential of the score minus the maximum. -/
theorem exp_eq (x0 x1 : Feat) (x2 x3 x4 x5 : V1024) (x6 x7 : M1024) (x9 x10 : V1024) (r : Fin 32768) (h : Fin 4) :
    val_main_v76 (F := Ideal) x0 x1 x2 x3 x4 x5 x6 x7 x9 x10 (ix3 r h (0 : Fin 1)) = Ideal.exp (RowSpec.headScore (proj x0 x2 x3 x6 x9 r) (proj x1 x4 x5 x7 x10 r) h - RowSpec.headScore (proj x0 x2 x3 x6 x9 r) (proj x1 x4 x5 x7 x10 r) h) := by
  rw [val_main_v76_apply, val_main_v75_apply, val_main_v74_apply,
    show idx_main_v74 (ix3 r h (0 : Fin 1)) = ix2 r h from funext fun a => Fin.ext (by match a with | ⟨0, _⟩ => rfl | ⟨1, _⟩ => rfl), max_eq, score_eq]
  rfl

/-- The softmax weight of the one key. -/
theorem weight_eq (x0 x1 : Feat) (x2 x3 x4 x5 : V1024) (x6 x7 : M1024) (x9 x10 : V1024) (r : Fin 32768) (h : Fin 4) :
    val_main_v79 (F := Ideal) x0 x1 x2 x3 x4 x5 x6 x7 x9 x10 (ix3 r h (0 : Fin 1)) = RowSpec.weight (RowSpec.headScore (proj x0 x2 x3 x6 x9 r) (proj x1 x4 x5 x7 x10 r) h) := by
  rw [val_main_v79_apply, val_main_v78_apply, val_main_v77_apply, val_main_cst_13_apply, RowSpec.sum_one,
    show idx_main_v77 (idx_main_v78 (ix3 r h (0 : Fin 1))) (0 : Fin 1) = ix3 r h (0 : Fin 1) from funext fun a => Fin.ext (by match a with | ⟨0, _⟩ => rfl | ⟨1, _⟩ => rfl | ⟨2, _⟩ => rfl), exp_eq]
  simp only [Ideal.hostDivf_def, Ideal.ofBits_def]
  rw [Ideal.ofBits_zero_f32, zero_add]
  rfl

/-! ## The attended row and the output projection -/

/-- The attended row of row r. -/
def att (x0 x1 : Feat) (x2 x3 x4 x5 : V1024) (x6 x7 x8 : M1024) (x9 x10 x11 : V1024) (r : Fin 32768) : RowSpec.Row 1024 :=
  RowSpec.attended (proj x0 x2 x3 x6 x9 r) (proj x1 x4 x5 x7 x10 r) (proj x1 x4 x5 x8 x11 r)

/-- The heads merged back into a row of 1024: the weight of the feature's head times the value. -/
theorem att_eq (x0 x1 : Feat) (x2 x3 x4 x5 : V1024) (x6 x7 x8 : M1024) (x9 x10 x11 : V1024) (r : Fin 32768) (j : Fin 1024) :
    val_main_v82 (F := Ideal) x0 x1 x2 x3 x4 x5 x6 x7 x8 x9 x10 x11 (ix2 r j) = att x0 x1 x2 x3 x4 x5 x6 x7 x8 x9 x10 x11 r j := by
  rw [val_main_v82_apply, idx82_head, val_main_v81_apply, val_main_v80_apply, val_main_v65_apply, idx65_col, col_head,
    v_eq, show idx_main_v80 (ix3 r (RowSpec.headOf j) (⟨j.val % 256, Nat.mod_lt _ (by decide)⟩ : Fin 256))
      = ix3 r (RowSpec.headOf j) (0 : Fin 1) from funext fun a => Fin.ext (by match a with | ⟨0, _⟩ => rfl | ⟨1, _⟩ => rfl | ⟨2, _⟩ => rfl), weight_eq]
  rfl

/-- The output projection of the attended row. -/
def outp (x0 x1 : Feat) (x2 x3 x4 x5 : V1024) (x6 x7 x8 : M1024) (x9 x10 x11 : V1024) (x12 : M1024) (x13 : V1024) (r : Fin 32768) : RowSpec.Row 1024 :=
  RowSpec.linear (mat x12) (vec x13) (att x0 x1 x2 x3 x4 x5 x6 x7 x8 x9 x10 x11 r)

/-- The output projection, entry j. -/
theorem o_eq (x0 x1 : Feat) (x2 x3 x4 x5 : V1024) (x6 x7 x8 : M1024) (x9 x10 x11 : V1024) (x12 : M1024) (x13 : V1024) (r : Fin 32768) (j : Fin 1024) :
    val_main_v87 (F := Ideal) x0 x1 x2 x3 x4 x5 x6 x7 x8 x9 x10 x11 x12 x13 (ix2 r j)
      = outp x0 x1 x2 x3 x4 x5 x6 x7 x8 x9 x10 x11 x12 x13 r j := by
  rw [val_main_v87_apply, val_main_v84_apply, val_main_v86_apply, val_main_v85_apply,
    show idx_main_v85 (idx_main_v86 (ix2 r j)) = ix1 j from funext fun a => Fin.ext (by match a with | ⟨0, _⟩ => rfl)]
  simp only [Ideal.addf_def]
  unfold outp RowSpec.linear
  refine congrArg (fun s => s + x13 (ix1 j)) (Finset.sum_congr rfl fun k _ => ?_)
  rw [val_main_v83_apply, show lidx_main_v84 (ix2 r j) k = ix2 r k from funext fun a => Fin.ext (by match a with | ⟨0, _⟩ => rfl | ⟨1, _⟩ => rfl),
    show idx_main_v83 (ridx_main_v84 (ix2 r j) k) = ix2 j k from funext fun a => Fin.ext (by match a with | ⟨0, _⟩ => rfl | ⟨1, _⟩ => rfl), att_eq]

/-! ## The score: a hidden layer of 2048 with a relu, then one output -/

/-- The hidden layer before the relu. -/
def hid (x0 x1 : Feat) (x2 x3 x4 x5 : V1024) (x6 x7 x8 : M1024) (x9 x10 x11 : V1024) (x12 : M1024) (x13 : V1024) (x14 : (⟨S2048x1024, .f32⟩ : BufTy).Contents (Elt Ideal)) (x15 : (⟨S2048, .f32⟩ : BufTy).Contents (Elt Ideal)) (r : Fin 32768) : RowSpec.Row 2048 :=
  RowSpec.linear (mat x14) (vec x15) (outp x0 x1 x2 x3 x4 x5 x6 x7 x8 x9 x10 x11 x12 x13 r)

/-- The hidden layer before the relu, entry j. -/
theorem h_eq (x0 x1 : Feat) (x2 x3 x4 x5 : V1024) (x6 x7 x8 : M1024) (x9 x10 x11 : V1024) (x12 : M1024) (x13 : V1024) (x14 : (⟨S2048x1024, .f32⟩ : BufTy).Contents (Elt Ideal)) (x15 : (⟨S2048, .f32⟩ : BufTy).Contents (Elt Ideal)) (r : Fin 32768) (j : Fin 2048) :
    val_main_v92 (F := Ideal) x0 x1 x2 x3 x4 x5 x6 x7 x8 x9 x10 x11 x12 x13 x14 x15 (ix2 r j)
      = hid x0 x1 x2 x3 x4 x5 x6 x7 x8 x9 x10 x11 x12 x13 x14 x15 r j := by
  rw [val_main_v92_apply, val_main_v89_apply, val_main_v91_apply, val_main_v90_apply,
    show idx_main_v90 (idx_main_v91 (ix2 r j)) = ix1 j from funext fun a => Fin.ext (by match a with | ⟨0, _⟩ => rfl)]
  simp only [Ideal.addf_def]
  unfold hid RowSpec.linear
  refine congrArg (fun s => s + x15 (ix1 j)) (Finset.sum_congr rfl fun k _ => ?_)
  rw [val_main_v88_apply, show lidx_main_v89 (ix2 r j) k = ix2 r k from funext fun a => Fin.ext (by match a with | ⟨0, _⟩ => rfl | ⟨1, _⟩ => rfl),
    show idx_main_v88 (ridx_main_v89 (ix2 r j) k) = ix2 j k from funext fun a => Fin.ext (by match a with | ⟨0, _⟩ => rfl | ⟨1, _⟩ => rfl), o_eq]

/-- The hidden layer after the relu. -/
theorem relu_eq (x0 x1 : Feat) (x2 x3 x4 x5 : V1024) (x6 x7 x8 : M1024) (x9 x10 x11 : V1024) (x12 : M1024) (x13 : V1024) (x14 : (⟨S2048x1024, .f32⟩ : BufTy).Contents (Elt Ideal)) (x15 : (⟨S2048, .f32⟩ : BufTy).Contents (Elt Ideal)) (r : Fin 32768) (j : Fin 2048) :
    val_main_v93 (F := Ideal) x0 x1 x2 x3 x4 x5 x6 x7 x8 x9 x10 x11 x12 x13 x14 x15 (ix2 r j) = RowSpec.relu (hid x0 x1 x2 x3 x4 x5 x6 x7 x8 x9 x10 x11 x12 x13 x14 x15 r j) := by
  rw [val_main_v93_apply, val_main_call0_v0_apply, val_main_call0_cst_apply, h_eq]
  rfl

/-- The result at row r: the second layer applied to the hidden layer. -/
theorem out_eq (x0 x1 : Feat) (x2 x3 x4 x5 : V1024) (x6 x7 x8 : M1024) (x9 x10 x11 : V1024) (x12 : M1024) (x13 : V1024) (x14 : (⟨S2048x1024, .f32⟩ : BufTy).Contents (Elt Ideal)) (x15 : (⟨S2048, .f32⟩ : BufTy).Contents (Elt Ideal)) (x16 : (⟨S1x2048, .f32⟩ : BufTy).Contents (Elt Ideal)) (x17 : (⟨S1, .f32⟩ : BufTy).Contents (Elt Ideal)) (r : Fin 32768) :
    val_main_v98 (F := Ideal) x0 x1 x2 x3 x4 x5 x6 x7 x8 x9 x10 x11 x12 x13 x14 x15 x16 x17 (ix2 r (0 : Fin 1))
      = RowSpec.linear (mat x16) (vec x17) (fun j => RowSpec.relu (hid x0 x1 x2 x3 x4 x5 x6 x7 x8 x9 x10 x11 x12 x13 x14 x15 r j)) 0 := by
  rw [val_main_v98_apply, val_main_v95_apply, val_main_v97_apply, val_main_v96_apply,
    show idx_main_v96 (idx_main_v97 (ix2 r (0 : Fin 1))) = ix1 (0 : Fin 1) from funext fun a => Fin.ext (by match a with | ⟨0, _⟩ => rfl)]
  simp only [Ideal.addf_def]
  unfold RowSpec.linear
  refine congrArg (fun s => s + x17 (ix1 (0 : Fin 1))) (Finset.sum_congr rfl fun k _ => ?_)
  rw [val_main_v94_apply, show lidx_main_v95 (ix2 r (0 : Fin 1)) k = ix2 r k from funext fun a => Fin.ext (by match a with | ⟨0, _⟩ => rfl | ⟨1, _⟩ => rfl),
    show idx_main_v94 (ridx_main_v95 (ix2 r (0 : Fin 1)) k) = ix2 (0 : Fin 1) k from funext fun a => Fin.ext (by match a with | ⟨0, _⟩ => rfl | ⟨1, _⟩ => rfl), relu_eq]

/-! ## The whole array -/

/-- The reference's result is the row specification applied to every row. -/
theorem result_eq (x0 x1 : (⟨S32768x1024, .f32⟩ : BufTy).Contents (Elt Ideal)) (x2 x3 x4 x5 : (⟨S1024, .f32⟩ : BufTy).Contents (Elt Ideal)) (x6 x7 x8 : (⟨S1024x1024, .f32⟩ : BufTy).Contents (Elt Ideal)) (x9 x10 x11 : (⟨S1024, .f32⟩ : BufTy).Contents (Elt Ideal)) (x12 : (⟨S1024x1024, .f32⟩ : BufTy).Contents (Elt Ideal)) (x13 : (⟨S1024, .f32⟩ : BufTy).Contents (Elt Ideal)) (x14 : (⟨S2048x1024, .f32⟩ : BufTy).Contents (Elt Ideal)) (x15 : (⟨S2048, .f32⟩ : BufTy).Contents (Elt Ideal)) (x16 : (⟨S1x2048, .f32⟩ : BufTy).Contents (Elt Ideal)) (x17 : (⟨S1, .f32⟩ : BufTy).Contents (Elt Ideal)) :
    Read.val_main_v98 (F := Ideal) x0 x1 x2 x3 x4 x5 x6 x7 x8 x9 x10 x11 x12 x13 x14 x15 x16 x17
      = Cert.RowSpec.G x0 x1 x2 x3 x4 x5 x6 x7 x8 x9 x10 x11 x12 x13 x14 x15 x16 x17 := by
  funext i
  obtain ⟨r, rfl⟩ : ∃ r : Fin 32768, i = ix2 r (0 : Fin 1) := ⟨i 0, Cert.Columns.eq_ix2_col i⟩
  exact out_eq x0 x1 x2 x3 x4 x5 x6 x7 x8 x9 x10 x11 x12 x13 x14 x15 x16 x17 r

end Cert.RefScore

end
-- ==== Proof.lean ====
/- The certificate of a cross-attention scorer. For each of 32768 rows the program normalises the row of the context
   features and the row of the candidate features (LayerNorm over the 1024 features), projects them to a query and to a
   key and a value, attends with 4 heads of 256 features over ONE key (so each head's softmax weight is
   exp(s - s) / exp(s - s) of its score s), projects the attended row, and scores it with a two-layer perceptron whose
   hidden layer is cut at zero: one number per row.
   The kernel does this 256 rows at a time with the weight matrices transposed by the host beforehand, the heads as four
   column slices whose pieces it stores side by side in a scratch block, and every matrix product into a zero accumulator;
   the reference does it for all rows at once with the heads as a reshape to [32768, 4, 256]. On the extended reals,
   where a change of float format is the identity, both are the same function of the eighteen argument arrays, row by row
   (Proof/RowSpec.lean): the kernel's side is Proof/Result.lean (over BlockNorm, BlockHeads, BlockTail, BlockValue and
   Windows), the reference's side Proof/RefScore.lean. No step moves a factor across a sum or cancels, so the inputs'
   finiteness is not used. The three frames are the generated ones, and the idealization rewrote nothing. -/
import proofs.«105981_j67894843015729_1_alg».proof.Defs
import proofs.«105981_j67894843015729_1_alg».proof.Proof.Gen.Kernel
import proofs.«105981_j67894843015729_1_alg».proof.Proof.Gen.Kernel.Skeleton
import proofs.«105981_j67894843015729_1_alg».proof.Proof.Gen.Kernel.Launch
import proofs.«105981_j67894843015729_1_alg».proof.Proof.Gen.Kernel.Points
import proofs.«105981_j67894843015729_1_alg».proof.Proof.Gen.Kernel.Frame
import proofs.«105981_j67894843015729_1_alg».proof.Proof.Gen.KernelIdeal
import proofs.«105981_j67894843015729_1_alg».proof.Proof.Gen.KernelIdeal.Skeleton
import proofs.«105981_j67894843015729_1_alg».proof.Proof.Gen.KernelIdeal.Launch
import proofs.«105981_j67894843015729_1_alg».proof.Proof.Gen.KernelIdeal.Points
import proofs.«105981_j67894843015729_1_alg».proof.Proof.Gen.KernelIdeal.Frame
import proofs.«105981_j67894843015729_1_alg».proof.Proof.Gen.ReferenceIdeal
import proofs.«105981_j67894843015729_1_alg».proof.Proof.Gen.Pre_finite_inputs
import proofs.«105981_j67894843015729_1_alg».proof.Proof.Gen.KernelIdeal.Value
import proofs.«105981_j67894843015729_1_alg».proof.Proof.Gen.ReferenceIdeal.Run
import proofs.«105981_j67894843015729_1_alg».proof.Proof.Gen.ReferenceIdeal.Read
import proofs.«105981_j67894843015729_1_alg».proof.Proof.Result
import proofs.«105981_j67894843015729_1_alg».proof.Proof.RefScore
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the row specification of the arguments, which agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨?_, (h c).2⟩)
    (Cert.ReferenceIdeal.Value.run (F := Ideal) m' ρ')
  obtain ⟨h0, h1, h2, h3, h4, h5, h6, h7, h8, h9, h10, h11, h12, h13, h14, h15, h16, h17⟩ := hagree c
  rw [(h c).1, Cert.ReferenceIdeal.Read.val_main_v98_eq, Cert.RefScore.result_eq, h0, h1, h2, h3, h4, h5, h6, h7, h8, h9, h10, h11, h12, h13, h14, h15, h16, h17]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
